-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8 : Shape := ⟨1, ![8]⟩
abbrev S8x2048x4096 : Shape := ⟨3, ![8, 2048, 4096]⟩
abbrev S8x4096x2048 : Shape := ⟨3, ![8, 4096, 2048]⟩
abbrev S8x2048x16 : Shape := ⟨3, ![8, 2048, 16]⟩
abbrev S8x16x4096 : Shape := ⟨3, ![8, 16, 4096]⟩
abbrev S8x4096x16 : Shape := ⟨3, ![8, 4096, 16]⟩
abbrev S8x16x2048 : Shape := ⟨3, ![8, 16, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x2048x16 : S_.BroadcastsInDim S8x2048x16 (![] : Fin 0 → Fin S8x2048x16.rank)
  reducesTo_S8x2048x16_S_d0_1_2 : S8x2048x16.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_
  bcast_S_S8x16x2048 : S_.BroadcastsInDim S8x16x2048 (![] : Fin 0 → Fin S8x16x2048.rank)
  reducesTo_S8x16x2048_S_d0_1_2 : S8x16x2048.ReducesTo [0, 1, 2] S_

variable [Facts]

def fn_part2 {F : FTy → Type} [FloatOps F] (main_arg8 : FVec F S8x16x4096 .f32) (main_arg9 : FVec F S8x4096x16 .f32) (main_arg10 : FVec F S8x16x2048 .f32) (main_v33 : IVec S_ 1) : IVec S_ 1 :=
  let main_v34 : FVec F S8x16x4096 .f32 := Host.absf main_arg8
  let main_cst_12 : FVec F S_ .f32 := constant S_ .f32 0x7F800000#32
  let main_v35 : FVec F S8x16x4096 .f32 := broadcastInDim S8x16x4096 ![] bcast_S_S8x16x4096 main_cst_12
  let main_v36 : IVec S8x16x4096 1 := cmpf .olt main_v34 main_v35
  let main_c_13 : IVec S_ 1 := constantI S_ 1 1#1
  let main_v37 : IVec S_ 1 := (fun x v => Host.reduce IntOp.andi x v reducesTo_S8x16x4096_S_d0_1_2 h_S_) main_v36 main_c_13
  let main_v38 : IVec S_ 1 := andi main_v33 main_v37
  let main_v39 : FVec F S8x4096x16 .f32 := Host.absf main_arg9
  let main_cst_14 : FVec F S_ .f32 := constant S_ .f32 0x7F800000#32
  let main_v40 : FVec F S8x4096x16 .f32 := broadcastInDim S8x4096x16 ![] bcast_S_S8x4096x16 main_cst_14
  let main_v41 : IVec S8x4096x16 1 := cmpf .olt main_v39 main_v40
  let main_c_15 : IVec S_ 1 := constantI S_ 1 1#1
  let main_v42 : IVec S_ 1 := (fun x v => Host.reduce IntOp.andi x v reducesTo_S8x4096x16_S_d0_1_2 h_S_) main_v41 main_c_15
  let main_v43 : IVec S_ 1 := andi main_v38 main_v42
  let main_v44 : FVec F S8x16x2048 .f32 := Host.absf main_arg10
  let main_cst_16 : FVec F S_ .f32 := constant S_ .f32 0x7F800000#32
  let main_v45 : FVec F S8x16x2048 .f32 := broadcastInDim S8x16x2048 ![] bcast_S_S8x16x2048 main_cst_16
  let main_v46 : IVec S8x16x2048 1 := cmpf .olt main_v44 main_v45
  let main_c_17 : IVec S_ 1 := constantI S_ 1 1#1
  let main_v47 : IVec S_ 1 := (fun x v => Host.reduce IntOp.andi x v reducesTo_S8x16x2048_S_d0_1_2 h_S_) main_v46 main_c_17
  let main_v48 : IVec S_ 1 := andi main_v43 main_v47
  main_v48

def fn_part1 {F : FTy → Type} [FloatOps F] (main_arg5 : FVec F S8x2048x16 .f32) (main_arg6 : FVec F S8x16x4096 .f32) (main_arg7 : FVec F S8x2048x16 .f32) (main_arg8 : FVec F S8x16x4096 .f32) (main_arg9 : FVec F S8x4096x16 .f32) (main_arg10 : FVec F S8x16x2048 .f32) (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  let main_v19 : FVec F S8x2048x16 .f32 := Host.absf main_arg5
  let main_cst_6 : FVec F S_ .f32 := constant S_ .f32 0x7F800000#32
  let main_v20 : FVec F S8x2048x16 .f32 := broadcastInDim S8x2048x16 ![] bcast_S_S8x2048x16 main_cst_6
  let main_v21 : IVec S8x2048x16 1 := cmpf .olt main_v19 main_v20
  let main_c_7 : IVec S_ 1 := constantI S_ 1 1#1
  let main_v22 : IVec S_ 1 := (fun x v => Host.reduce IntOp.andi x v reducesTo_S8x2048x16_S_d0_1_2 h_S_) main_v21 main_c_7
  let main_v23 : IVec S_ 1 := andi main_v18 main_v22
  let main_v24 : FVec F S8x16x4096 .f32 := Host.absf main_arg6
  let main_cst_8 : FVec F S_ .f32 := constant S_ .f32 0x7F800000#32
  let main_v25 : FVec F S8x16x4096 .f32 := broadcastInDim S8x16x4096 ![] bcast_S_S8x16x4096 main_cst_8
  let main_v26 : IVec S8x16x4096 1 := cmpf .olt main_v24 main_v25
  let main_c_9 : IVec S_ 1 := constantI S_ 1 1#1
  let main_v27 : IVec S_ 1 := (fun x v => Host.reduce IntOp.andi x v reducesTo_S8x16x4096_S_d0_1_2 h_S_) main_v26 main_c_9
  let main_v28 : IVec S_ 1 := andi main_v23 main_v27
  let main_v29 : FVec F S8x2048x16 .f32 := Host.absf main_arg7
  let main_cst_10 : FVec F S_ .f32 := constant S_ .f32 0x7F800000#32
  let main_v30 : FVec F S8x2048x16 .f32 := broadcastInDim S8x2048x16 ![] bcast_S_S8x2048x16 main_cst_10
  let main_v31 : IVec S8x2048x16 1 := cmpf .olt main_v29 main_v30
  let main_c_11 : IVec S_ 1 := constantI S_ 1 1#1
  let main_v32 : IVec S_ 1 := (fun x v => Host.reduce IntOp.andi x v reducesTo_S8x2048x16_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S8192x2048 .f32) (main_arg1 : IVec S8 32) (main_arg2 : FVec F S8x2048x4096 .f32) (main_arg3 : FVec F S8x2048x4096 .f32) (main_arg4 : FVec F S8x4096x2048 .f32) (main_arg5 : FVec F S8x2048x16 .f32) (main_arg6 : FVec F S8x16x4096 .f32) (main_arg7 : FVec F S8x2048x16 .f32) (main_arg8 : FVec F S8x16x4096 .f32) (main_arg9 : FVec F S8x4096x16 .f32) (main_arg10 : FVec F S8x16x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x4096 .f32 := Host.absf main_arg2
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg3
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg4
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_arg5 main_arg6 main_arg7 main_arg8 main_arg9 main_arg10 main_v13 main_v16
-- ==== Kernel.lean ====
abbrev S8192x2048 : Shape := ⟨2, ![8192, 2048]⟩
abbrev S8 : Shape := ⟨1, ![8]⟩
abbrev S8x2048x4096 : Shape := ⟨3, ![8, 2048, 4096]⟩
abbrev S8x4096x2048 : Shape := ⟨3, ![8, 4096, 2048]⟩
abbrev S8x2048x16 : Shape := ⟨3, ![8, 2048, 16]⟩
abbrev S8x16x4096 : Shape := ⟨3, ![8, 16, 4096]⟩
abbrev S8x4096x16 : Shape := ⟨3, ![8, 4096, 16]⟩
abbrev S8x16x2048 : Shape := ⟨3, ![8, 16, 2048]⟩
abbrev S8x1024x2048 : Shape := ⟨3, ![8, 1024, 2048]⟩
abbrev S1x1024x2048 : Shape := ⟨3, ![1, 1024, 2048]⟩
abbrev S1x2048x128 : Shape := ⟨3, ![1, 2048, 128]⟩
abbrev S1x2048x16 : Shape := ⟨3, ![1, 2048, 16]⟩
abbrev S1x16x128 : Shape := ⟨3, ![1, 16, 128]⟩
abbrev S1x128x2048 : Shape := ⟨3, ![1, 128, 2048]⟩
abbrev S1x128x16 : Shape := ⟨3, ![1, 128, 16]⟩
abbrev S1x16x2048 : Shape := ⟨3, ![1, 16, 2048]⟩
abbrev S1024x2048 : Shape := ⟨2, ![1024, 2048]⟩
abbrev S1024x16 : Shape := ⟨2, ![1024, 16]⟩
abbrev S2048x128 : Shape := ⟨2, ![2048, 128]⟩
abbrev S2048x16 : Shape := ⟨2, ![2048, 16]⟩
abbrev S16x128 : Shape := ⟨2, ![16, 128]⟩
abbrev S1024x128 : Shape := ⟨2, ![1024, 128]⟩
abbrev S128x2048 : Shape := ⟨2, ![128, 2048]⟩
abbrev S128x16 : Shape := ⟨2, ![128, 16]⟩
abbrev S16x2048 : Shape := ⟨2, ![16, 2048]⟩

abbrev nBuf : Space → Nat
  | .hbm => 14
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S8x2048x16, .f32⟩
  | .hbm, ⟨6, _⟩ => ⟨S8x16x4096, .f32⟩
  | .hbm, ⟨7, _⟩ => ⟨S8x2048x16, .f32⟩
  | .hbm, ⟨8, _⟩ => ⟨S8x16x4096, .f32⟩
  | .hbm, ⟨9, _⟩ => ⟨S8x4096x16, .f32⟩
  | .hbm, ⟨10, _⟩ => ⟨S8x16x2048, .f32⟩
  | .hbm, ⟨11, _⟩ => ⟨S8x1024x2048, .f32⟩
  | .hbm, ⟨12, _⟩ => ⟨S8x1024x2048, .f32⟩
  | .hbm, ⟨13, _⟩ => ⟨S8192x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x16, .f32⟩
  | .local _ .vmem, ⟨7, _⟩ => ⟨S1x2048x16, .f32⟩
  | .local _ .vmem, ⟨8, _⟩ => ⟨S1x16x128, .f32⟩
  | .local _ .vmem, ⟨9, _⟩ => ⟨S1x16x128, .f32⟩
  | .local _ .vmem, ⟨10, _⟩ => ⟨S1x2048x16, .f32⟩
  | .local _ .vmem, ⟨11, _⟩ => ⟨S1x2048x16, .f32⟩
  | .local _ .vmem, ⟨12, _⟩ => ⟨S1x16x128, .f32⟩
  | .local _ .vmem, ⟨13, _⟩ => ⟨S1x16x128, .f32⟩
  | .local _ .vmem, ⟨14, _⟩ => ⟨S1x128x2048, .f32⟩
  | .local _ .vmem, ⟨15, _⟩ => ⟨S1x128x2048, .f32⟩
  | .local _ .vmem, ⟨16, _⟩ => ⟨S1x128x16, .f32⟩
  | .local _ .vmem, ⟨17, _⟩ => ⟨S1x128x16, .f32⟩
  | .local _ .vmem, ⟨18, _⟩ => ⟨S1x16x2048, .f32⟩
  | .local _ .vmem, ⟨19, _⟩ => ⟨S1x16x2048, .f32⟩
  | .local _ .vmem, ⟨20, _⟩ => ⟨S1x1024x2048, .f32⟩
  | .local _ .vmem, ⟨21, _⟩ => ⟨S1x1024x2048, .f32⟩
  | .local _ .vmem, ⟨22, _⟩ => ⟨S1024x2048, .f32⟩
  | .local _ .vmem, ⟨23, _⟩ => ⟨S1024x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v59 : BitVec 1 := Scalar.cmpi .eq arg1 c31_i32
  let v60 : BitVec 32 := Scalar.extui v59
  let c0_i32_47 : BitVec 32 := 0#32
  let v61 : BitVec 1 := Scalar.cmpi .ne v60 c0_i32_47
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S8192x2048_S8x1024x2048 : S8192x2048.ShapeCasts S8x1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S1024x2048_S1x1024x2048 : S1024x2048.ShapeCasts S1x1024x2048
  shapeCasts_S8x1024x2048_S8192x2048 : S8x1024x2048.ShapeCasts S8192x2048
  dot_S1024x2048_S2048x128_S1024x128_1_0_0_1_n_n_wf : DotDims.WF S1024x2048 S2048x128 S1024x128 [1] [0] [0] [1] [] []
  dot_S1024x2048_S2048x16_S1024x16_1_0_0_1_n_n_wf : DotDims.WF S1024x2048 S2048x16 S1024x16 [1] [0] [0] [1] [] []
  dot_S1024x16_S16x128_S1024x128_1_0_0_1_n_n_wf : DotDims.WF S1024x16 S16x128 S1024x128 [1] [0] [0] [1] [] []
  dot_S1024x128_S128x2048_S1024x2048_1_0_0_1_n_n_wf : DotDims.WF S1024x128 S128x2048 S1024x2048 [1] [0] [0] [1] [] []
  dot_S1024x128_S128x16_S1024x16_1_0_0_1_n_n_wf : DotDims.WF S1024x128 S128x16 S1024x16 [1] [0] [0] [1] [] []
  dot_S1024x16_S16x2048_S1024x2048_1_0_0_1_n_n_wf : DotDims.WF S1024x16 S16x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x4096.size a
  hwx0_1 : ∀ i : grid0.Coords, EltTy.bits .f32 = 32 ∨ (Rect.block (s := S8x2048x4096) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x4096.size a
  hwx0_2 : ∀ i : grid0.Coords, EltTy.bits .f32 = 32 ∨ (Rect.block (s := S8x2048x4096) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x16.size a ≤ S8x2048x16.size a
  hwx0_3 : ∀ i : grid0.Coords, EltTy.bits .f32 = 32 ∨ (Rect.block (s := S8x2048x16) S1x2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128.size a ≤ S8x16x4096.size a
  hwx0_4 : ∀ i : grid0.Coords, EltTy.bits .f32 = 32 ∨ (Rect.block (s := S8x16x4096) S1x16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x16.size a ≤ S8x2048x16.size a
  hwx0_5 : ∀ i : grid0.Coords, EltTy.bits .f32 = 32 ∨ (Rect.block (s := S8x2048x16) S1x2048x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x128.size a ≤ S8x16x4096.size a
  hwx0_6 : ∀ i : grid0.Coords, EltTy.bits .f32 = 32 ∨ (Rect.block (s := S8x16x4096) S1x16x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x2048.size a ≤ S8x4096x2048.size a
  hwx0_7 : ∀ i : grid0.Coords, EltTy.bits .f32 = 32 ∨ (Rect.block (s := S8x4096x2048) S1x128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x16.size a ≤ S8x4096x16.size a
  hwx0_8 : ∀ i : grid0.Coords, EltTy.bits .f32 = 32 ∨ (Rect.block (s := S8x4096x16) S1x128x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x2048.size a ≤ S8x16x2048.size a
  hwx0_9 : ∀ i : grid0.Coords, EltTy.bits .f32 = 32 ∨ (Rect.block (s := S8x16x2048) S1x16x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x2048.size a ≤ S8x1024x2048.size a
  hwx0_10 : ∀ i : grid0.Coords, EltTy.bits .f32 = 32 ∨ (Rect.block (s := S8x1024x2048) S1x1024x2048.size (cc0_transform_10 i) (hinb0_10 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x16x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x2048x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x16x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S1x128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x128x16.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x16x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x1024x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8 : Shape := ⟨1, ![8]⟩
abbrev S8x2048x4096 : Shape := ⟨3, ![8, 2048, 4096]⟩
abbrev S8x4096x2048 : Shape := ⟨3, ![8, 4096, 2048]⟩
abbrev S8x2048x16 : Shape := ⟨3, ![8, 2048, 16]⟩
abbrev S8x16x4096 : Shape := ⟨3, ![8, 16, 4096]⟩
abbrev S8x4096x16 : Shape := ⟨3, ![8, 4096, 16]⟩
abbrev S8x16x2048 : Shape := ⟨3, ![8, 16, 2048]⟩
abbrev S8x1024x2048 : Shape := ⟨3, ![8, 1024, 2048]⟩
abbrev S8x1024x4096 : Shape := ⟨3, ![8, 1024, 4096]⟩
abbrev S8x1024x16 : Shape := ⟨3, ![8, 1024, 16]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S8x2048x16, .f32⟩
  | .hbm, ⟨6, _⟩ => ⟨S8x16x4096, .f32⟩
  | .hbm, ⟨7, _⟩ => ⟨S8x2048x16, .f32⟩
  | .hbm, ⟨8, _⟩ => ⟨S8x16x4096, .f32⟩
  | .hbm, ⟨9, _⟩ => ⟨S8x4096x16, .f32⟩
  | .hbm, ⟨10, _⟩ => ⟨S8x16x2048, .f32⟩
  | .hbm, ⟨11, _⟩ => ⟨S8x1024x2048, .f32⟩
  | .hbm, ⟨12, _⟩ => ⟨S8x1024x4096, .f32⟩
  | .hbm, ⟨13, _⟩ => ⟨S8x1024x16, .f32⟩
  | .hbm, ⟨14, _⟩ => ⟨S8x1024x4096, .f32⟩
  | .hbm, ⟨15, _⟩ => ⟨S_, .f32⟩
  | .hbm, ⟨16, _⟩ => ⟨S8x1024x4096, .f32⟩
  | .hbm, ⟨17, _⟩ => ⟨S8x1024x4096, .f32⟩
  | .hbm, ⟨18, _⟩ => ⟨S8x1024x4096, .f32⟩
  | .hbm, ⟨19, _⟩ => ⟨S8x1024x4096, .f32⟩
  | .hbm, ⟨20, _⟩ => ⟨S8x1024x4096, .f32⟩
  | .hbm, ⟨21, _⟩ => ⟨S_, .f32⟩
  | .hbm, ⟨22, _⟩ => ⟨S8x1024x4096, .f32⟩
  | .hbm, ⟨23, _⟩ => ⟨S8x1024x4096, .f32⟩
  | .hbm, ⟨24, _⟩ => ⟨S_, .f32⟩
  | .hbm, ⟨25, _⟩ => ⟨S8x1024x4096, .f32⟩
  | .hbm, ⟨26, _⟩ => ⟨S8x1024x4096, .f32⟩
  | .hbm, ⟨27, _⟩ => ⟨S8x1024x4096, .f32⟩
  | .hbm, ⟨28, _⟩ => ⟨S8x1024x4096, .f32⟩
  | .hbm, ⟨29, _⟩ => ⟨S8x1024x16, .f32⟩
  | .hbm, ⟨30, _⟩ => ⟨S8x1024x4096, .f32⟩
  | .hbm, ⟨31, _⟩ => ⟨S_, .f32⟩
  | .hbm, ⟨32, _⟩ => ⟨S8x1024x4096, .f32⟩
  | .hbm, ⟨33, _⟩ => ⟨S8x1024x4096, .f32⟩
  | .hbm, ⟨34, _⟩ => ⟨S8x1024x4096, .f32⟩
  | .hbm, ⟨35, _⟩ => ⟨S8x1024x4096, .f32⟩
  | .hbm, ⟨36, _⟩ => ⟨S8x1024x2048, .f32⟩
  | .hbm, ⟨37, _⟩ => ⟨S8x1024x16, .f32⟩
  | .hbm, ⟨38, _⟩ => ⟨S8x1024x2048, .f32⟩
  | .hbm, ⟨39, _⟩ => ⟨S_, .f32⟩
  | .hbm, ⟨40, _⟩ => ⟨S8x1024x2048, .f32⟩
  | .hbm, ⟨41, _⟩ => ⟨S8x1024x2048, .f32⟩
  | .hbm, ⟨42, _⟩ => ⟨S8x1024x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  shapeCasts_S8192x2048_S8x1024x2048 : S8192x2048.ShapeCasts S8x1024x2048
  bcast_S_S8x1024x4096 : S_.BroadcastsInDim S8x1024x4096 (![] : Fin 0 → Fin S8x1024x4096.rank)
  bcast_S_S8x1024x2048 : S_.BroadcastsInDim S8x1024x2048 (![] : Fin 0 → Fin S8x1024x2048.rank)
  shapeCasts_S8x1024x2048_S8192x2048 : S8x1024x2048.ShapeCasts S8192x2048
  dot_S8x1024x2048_S8x2048x4096_S8x1024x4096_2_1_1_2_0_0_wf : DotDims.WF S8x1024x2048 S8x2048x4096 S8x1024x4096 [2] [1] [1] [2] [0] [0]
  dot_S8x1024x2048_S8x2048x16_S8x1024x16_2_1_1_2_0_0_wf : DotDims.WF S8x1024x2048 S8x2048x16 S8x1024x16 [2] [1] [1] [2] [0] [0]
  dot_S8x1024x16_S8x16x4096_S8x1024x4096_2_1_1_2_0_0_wf : DotDims.WF S8x1024x16 S8x16x4096 S8x1024x4096 [2] [1] [1] [2] [0] [0]
  dot_S8x1024x4096_S8x4096x2048_S8x1024x2048_2_1_1_2_0_0_wf : DotDims.WF S8x1024x4096 S8x4096x2048 S8x1024x2048 [2] [1] [1] [2] [0] [0]
  dot_S8x1024x4096_S8x4096x16_S8x1024x16_2_1_1_2_0_0_wf : DotDims.WF S8x1024x4096 S8x4096x16 S8x1024x16 [2] [1] [1] [2] [0] [0]
  dot_S8x1024x16_S8x16x2048_S8x1024x2048_2_1_1_2_0_0_wf : DotDims.WF S8x1024x16 S8x16x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x2048_S8x2048x16_S8x1024x16_2_1_1_2_0_0 : DotDims S8x1024x2048 S8x2048x16 S8x1024x16 where
  lhsContracting := [2]
  rhsContracting := [1]
  lhsNonContracting := [1]
  rhsNonContracting := [2]
  lhsBatch := [0]
  rhsBatch := [0]
  wf := dot_S8x1024x2048_S8x2048x16_S8x1024x16_2_1_1_2_0_0_wf
def dot_S8x1024x16_S8x16x4096_S8x1024x4096_2_1_1_2_0_0 : DotDims S8x1024x16 S8x16x4096 S8x1024x4096 where
  lhsContracting := [2]
  rhsContracting := [1]
  lhsNonContracting := [1]
  rhsNonContracting := [2]
  lhsBatch := [0]
  rhsBatch := [0]
  wf := dot_S8x1024x16_S8x16x4096_S8x1024x4096_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf
def dot_S8x1024x4096_S8x4096x16_S8x1024x16_2_1_1_2_0_0 : DotDims S8x1024x4096 S8x4096x16 S8x1024x16 where
  lhsContracting := [2]
  rhsContracting := [1]
  lhsNonContracting := [1]
  rhsNonContracting := [2]
  lhsBatch := [0]
  rhsBatch := [0]
  wf := dot_S8x1024x4096_S8x4096x16_S8x1024x16_2_1_1_2_0_0_wf
def dot_S8x1024x16_S8x16x2048_S8x1024x2048_2_1_1_2_0_0 : DotDims S8x1024x16 S8x16x2048 S8x1024x2048 where
  lhsContracting := [2]
  rhsContracting := [1]
  lhsNonContracting := [1]
  rhsNonContracting := [2]
  lhsBatch := [0]
  rhsBatch := [0]
  wf := dot_S8x1024x16_S8x16x2048_S8x1024x2048_2_1_1_2_0_0_wf

class Facts : Prop extends Facts₀ where

variable [Facts]
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.Spec.lean ====
/-
  A grouped expert layer with low-rank corrections, as one function of its arrays.

  For each of 8 experts, with its 1024 token rows x (2048 features each), a projection with a rank-16 correction is
  x·W + 2·((x·A)·B). The hidden activation is silu(gate) · up, where gate and up are two such projections to 4096 columns
  and silu v = v · (1 / (1 + e^(-v))); the result is a third such projection of the hidden activation back to 2048 columns.

  The same result can be accumulated over the 4096 hidden columns cut into 32 consecutive blocks of 128: the partial
  sums of the base product and of the correction's inner product over the first n blocks grow by one block's sum at a time,
  and after all 32 blocks they are the sums over all 4096 columns. Only commutativity and associativity of the addition of
  extended reals are used: no entry has to be finite.
-/
import Idealize.ShloMosaic.Lib.ValueIdx
import Idealize.ShloMosaic.PureOps.Ideal.Laws
import proofs.«105736_j42949673290_2_alg».proof.Proof.LibBlockSum

noncomputable section

open scoped BigOperators

namespace Cert.Moe

open Idealize.ShloMosaic Idealize.ShloMosaic.ValueIdx

/-- The numbers 0, 1 and 2 as both programs spell them. -/
abbrev zero : EReal := Ideal.ofBits .f32 0x00000000#32
abbrev one : EReal := Ideal.ofBits .f32 0x3F800000#32
abbrev two : EReal := Ideal.ofBits .f32 0x40000000#32

theorem zero_eq : zero = 0 := Ideal.ofBits_zero_f32

/-- One expert's projection with its rank-16 correction, at row t and column n: (x·w) + 2·((x·a)·b). -/
def lin {K N : ℕ} (x : Fin 1024 → Fin K → EReal) (w : Fin K → Fin N → EReal) (a : Fin K → Fin 16 → EReal)
    (b : Fin 16 → Fin N → EReal) (t : Fin 1024) (n : Fin N) : EReal :=
  (∑ k : Fin K, x t k * w k n) + two * ∑ r : Fin 16, (∑ k : Fin K, x t k * a k r) * b r n

/-- silu v = v · (1 / (1 + e^(-v))). -/
def silu (v : EReal) : EReal := v * Ideal.div one (one + Ideal.exp (-v))

/-- One expert's hidden activation at row t and column n: silu(gate) · up. -/
def hid {N : ℕ} (x : Fin 1024 → Fin 2048 → EReal) (wg wu : Fin 2048 → Fin N → EReal) (ag au : Fin 2048 → Fin 16 → EReal)
    (bg bu : Fin 16 → Fin N → EReal) (t : Fin 1024) (n : Fin N) : EReal :=
  silu (lin x wg ag bg t n) * lin x wu au bu t n

/-- An array of extended reals with three axes. -/
abbrev Arr3 (a b c : ℕ) : Type := (⟨3, ![a, b, c]⟩ : Shape).Idx → EReal

/-- Expert e's hidden activation, from the whole arrays. -/
def hidAt (X : Arr3 8 1024 2048) (Wg Wu : Arr3 8 2048 4096) (Ag Au : Arr3 8 2048 16) (Bg Bu : Arr3 8 16 4096) (e : Fin 8) :
    Fin 1024 → Fin 4096 → EReal :=
  hid (fun t k => X (ix3 e t k)) (fun k n => Wg (ix3 e k n)) (fun k n => Wu (ix3 e k n)) (fun k r => Ag (ix3 e k r))
    (fun k r => Au (ix3 e k r)) (fun r n => Bg (ix3 e r n)) (fun r n => Bu (ix3 e r n))

/-- The layer's result at expert e, row t, column d. -/
def out (X : Arr3 8 1024 2048) (Wg Wu : Arr3 8 2048 4096) (Wd : Arr3 8 4096 2048) (Ag Au : Arr3 8 2048 16)
    (Bg Bu : Arr3 8 16 4096) (Ad : Arr3 8 4096 16) (Bd : Arr3 8 16 2048) (e : Fin 8) (t : Fin 1024) (d : Fin 2048) : EReal :=
  lin (hidAt X Wg Wu Ag Au Bg Bu e) (fun k d => Wd (ix3 e k d)) (fun k r => Ad (ix3 e k r)) (fun r d => Bd (ix3 e r d)) t d

/-- The layer's result as an array over (expert, row, column). -/
def outArr (X : Arr3 8 1024 2048) (Wg Wu : Arr3 8 2048 4096) (Wd : Arr3 8 4096 2048) (Ag Au : Arr3 8 2048 16)
    (Bg Bu : Arr3 8 16 4096) (Ad : Arr3 8 4096 16) (Bd : Arr3 8 16 2048) : Arr3 8 1024 2048 :=
  fun i => out X Wg Wu Wd Ag Au Bg Bu Ad Bd (i 0) (i 1) (i 2)

theorem outArr_ix3 (X : Arr3 8 1024 2048) (Wg Wu : Arr3 8 2048 4096) (Wd : Arr3 8 4096 2048) (Ag Au : Arr3 8 2048 16)
    (Bg Bu : Arr3 8 16 4096) (Ad : Arr3 8 4096 16) (Bd : Arr3 8 16 2048) (e : Fin 8) (t : Fin 1024) (d : Fin 2048) :
    outArr X Wg Wu Wd Ag Au Bg Bu Ad Bd (ix3 e t d) = out X Wg Wu Wd Ag Au Bg Bu Ad Bd e t d := rfl

/-! ## The hidden columns in 32 blocks of 128 -/

/-- Column j of block h among the 4096 hidden columns: 128·h + j (for h below 32). -/
def col (h : ℕ) (j : Fin 128) : Fin 4096 := ⟨(h * 128 + j.val) % 4096, Nat.mod_lt _ (by norm_num)⟩

theorem col_val (h : ℕ) (hh : h < 32) (j : Fin 128) : (col h j).val = h * 128 + j.val := by
  have hj : j.val < 128 := j.isLt
  show (h * 128 + j.val) % 4096 = _
  omega

/-- The base product's partial sum over the first n blocks, at row t and column d. -/
def accOut (hd : Fin 1024 → Fin 4096 → EReal) (wd : Fin 4096 → Fin 2048 → EReal) (n : ℕ) (t : Fin 1024) (d : Fin 2048) : EReal :=
  ∑ h ∈ Finset.range n, ∑ j : Fin 128, hd t (col h j) * wd (col h j) d

/-- The correction's inner product's partial sum over the first n blocks, at row t and rank index r. -/
def accMid (hd : Fin 1024 → Fin 4096 → EReal) (ad : Fin 4096 → Fin 16 → EReal) (n : ℕ) (t : Fin 1024) (r : Fin 16) : EReal :=
  ∑ h ∈ Finset.range n, ∑ j : Fin 128, hd t (col h j) * ad (col h j) r

theorem accOut_zero (hd : Fin 1024 → Fin 4096 → EReal) (wd : Fin 4096 → Fin 2048 → EReal) (t : Fin 1024) (d : Fin 2048) :
    accOut hd wd 0 t d = 0 := Finset.sum_range_zero _

theorem accMid_zero (hd : Fin 1024 → Fin 4096 → EReal) (ad : Fin 4096 → Fin 16 → EReal) (t : Fin 1024) (r : Fin 16) :
    accMid hd ad 0 t r = 0 := Finset.sum_range_zero _

/-- One more block adds that block's sum. -/
theorem accOut_succ (hd : Fin 1024 → Fin 4096 → EReal) (wd : Fin 4096 → Fin 2048 → EReal) (n : ℕ) (t : Fin 1024) (d : Fin 2048) :
    accOut hd wd (n + 1) t d = accOut hd wd n t d + ∑ j : Fin 128, hd t (col n j) * wd (col n j) d :=
  Finset.sum_range_succ _ n

theorem accMid_succ (hd : Fin 1024 → Fin 4096 → EReal) (ad : Fin 4096 → Fin 16 → EReal) (n : ℕ) (t : Fin 1024) (r : Fin 16) :
    accMid hd ad (n + 1) t r = accMid hd ad n t r + ∑ j : Fin 128, hd t (col n j) * ad (col n j) r :=
  Finset.sum_range_succ _ n

/-- All 32 blocks together are all 4096 columns. -/
theorem sum_cols (f : Fin 4096 → EReal) : ∑ h ∈ Finset.range 32, ∑ j : Fin 128, f (col h j) = ∑ k : Fin 4096, f k := by
  rw [Finset.sum_range fun h => ∑ j : Fin 128, f (col h j)]
  rw [← Cert.LibBlockSum.sum_blocks 32 128 f fun t y => Cert.LibBlockSum.blk_lt t y]
  refine Finset.sum_congr rfl fun h _ => Finset.sum_congr rfl fun j _ => congrArg f (Fin.ext ?_)
  exact col_val h.val h.isLt j

/-- After all 32 blocks the two partial sums, combined as the last step combines them, are the projection of the hidden
    activation with its correction. -/
theorem blocked_eq_lin (hd : Fin 1024 → Fin 4096 → EReal) (wd : Fin 4096 → Fin 2048 → EReal) (ad : Fin 4096 → Fin 16 → EReal)
    (bd : Fin 16 → Fin 2048 → EReal) (t : Fin 1024) (d : Fin 2048) :
    accOut hd wd 32 t d + two * ∑ r : Fin 16, accMid hd ad 32 t r * bd r d = lin hd wd ad bd t d := by
  unfold lin accOut accMid
  rw [sum_cols fun k => hd t k * wd k d]
  refine congrArg (fun s => _ + two * s) (Finset.sum_congr rfl fun r _ => ?_)
  rw [sum_cols fun k => hd t k * ad k r]

end Cert.Moe

end
-- ==== Proof.RefValue.lean ====
/-
  The reference program's result, element by element, is the grouped expert layer of Spec.lean applied to its arguments.

  Each of the reference's three projections is a batched product over the expert axis plus twice the product through the
  rank-16 factors; read at an index (e, t, n) every contraction is a sum over its one contracted coordinate of the left
  operand at (e, t, k) times the right operand at (e, k, n). The activation between them is applied element by element.
  The token array enters only through its reshaped form with the expert axis split off, which is kept as it is.
-/
import proofs.«105736_j42949673290_2_alg».proof.Proof.Gen.ReferenceIdeal.Read
import proofs.«105736_j42949673290_2_alg».proof.Proof.Spec

noncomputable section

open scoped BigOperators

namespace Cert.ReferenceIdeal.RefValue

open Cert Cert.ReferenceIdeal Cert.ReferenceIdeal.Gen Cert.ReferenceIdeal.Read Idealize.ShloMosaic Idealize.ShloMosaic.ValueIdx

/-! The operand indices of each contraction, at an index given by its coordinates. -/

theorem lidx_v1 (e : Fin 8) (t : Fin 1024) (n : Fin 4096) (k : Fin 2048) :
    lidx_main_v1 (ix3 e t n) k = ix3 e t k :=
  funext fun a => Fin.ext (by match a with | ⟨0, _⟩ => rfl | ⟨1, _⟩ => rfl | ⟨2, _⟩ => rfl)
theorem ridx_v1 (e : Fin 8) (t : Fin 1024) (n : Fin 4096) (k : Fin 2048) :
    ridx_main_v1 (ix3 e t n) k = ix3 e k n :=
  funext fun a => Fin.ext (by match a with | ⟨0, _⟩ => rfl | ⟨1, _⟩ => rfl | ⟨2, _⟩ => rfl)
theorem lidx_v2 (e : Fin 8) (t : Fin 1024) (n : Fin 16) (k : Fin 2048) :
    lidx_main_v2 (ix3 e t n) k = ix3 e t k :=
  funext fun a => Fin.ext (by match a with | ⟨0, _⟩ => rfl | ⟨1, _⟩ => rfl | ⟨2, _⟩ => rfl)
theorem ridx_v2 (e : Fin 8) (t : Fin 1024) (n : Fin 16) (k : Fin 2048) :
    ridx_main_v2 (ix3 e t n) k = ix3 e k n :=
  funext fun a => Fin.ext (by match a with | ⟨0, _⟩ => rfl | ⟨1, _⟩ => rfl | ⟨2, _⟩ => rfl)
theorem lidx_v3 (e : Fin 8) (t : Fin 1024) (n : Fin 4096) (k : Fin 16) :
    lidx_main_v3 (ix3 e t n) k = ix3 e t k :=
  funext fun a => Fin.ext (by match a with | ⟨0, _⟩ => rfl | ⟨1, _⟩ => rfl | ⟨2, _⟩ => rfl)
theorem ridx_v3 (e : Fin 8) (t : Fin 1024) (n : Fin 4096) (k : Fin 16) :
    ridx_main_v3 (ix3 e t n) k = ix3 e k n :=
  funext fun a => Fin.ext (by match a with | ⟨0, _⟩ => rfl | ⟨1, _⟩ => rfl | ⟨2, _⟩ => rfl)
theorem lidx_v8 (e : Fin 8) (t : Fin 1024) (n : Fin 4096) (k : Fin 2048) :
    lidx_main_v8 (ix3 e t n) k = ix3 e t k :=
  funext fun a => Fin.ext (by match a with | ⟨0, _⟩ => rfl | ⟨1, _⟩ => rfl | ⟨2, _⟩ => rfl)
theorem ridx_v8 (e : Fin 8) (t : Fin 1024) (n : Fin 4096) (k : Fin 2048) :
    ridx_main_v8 (ix3 e t n) k = ix3 e k n :=
  funext fun a => Fin.ext (by match a with | ⟨0, _⟩ => rfl | ⟨1, _⟩ => rfl | ⟨2, _⟩ => rfl)
theorem lidx_v9 (e : Fin 8) (t : Fin 1024) (n : Fin 16) (k : Fin 2048) :
    lidx_main_v9 (ix3 e t n) k = ix3 e t k :=
  funext fun a => Fin.ext (by match a with | ⟨0, _⟩ => rfl | ⟨1, _⟩ => rfl | ⟨2, _⟩ => rfl)
theorem ridx_v9 (e : Fin 8) (t : Fin 1024) (n : Fin 16) (k : Fin 2048) :
    ridx_main_v9 (ix3 e t n) k = ix3 e k n :=
  funext fun a => Fin.ext (by match a with | ⟨0, _⟩ => rfl | ⟨1, _⟩ => rfl | ⟨2, _⟩ => rfl)
theorem lidx_v10 (e : Fin 8) (t : Fin 1024) (n : Fin 4096) (k : Fin 16) :
    lidx_main_v10 (ix3 e t n) k = ix3 e t k :=
  funext fun a => Fin.ext (by match a with | ⟨0, _⟩ => rfl | ⟨1, _⟩ => rfl | ⟨2, _⟩ => rfl)
theorem ridx_v10 (e : Fin 8) (t : Fin 1024) (n : Fin 4096) (k : Fin 16) :
    ridx_main_v10 (ix3 e t n) k = ix3 e k n :=
  funext fun a => Fin.ext (by match a with | ⟨0, _⟩ => rfl | ⟨1, _⟩ => rfl | ⟨2, _⟩ => rfl)
theorem lidx_v15 (e : Fin 8) (t : Fin 1024) (n : Fin 2048) (k : Fin 4096) :
    lidx_main_v15 (ix3 e t n) k = ix3 e t k :=
  funext fun a => Fin.ext (by match a with | ⟨0, _⟩ => rfl | ⟨1, _⟩ => rfl | ⟨2, _⟩ => rfl)
theorem ridx_v15 (e : Fin 8) (t : Fin 1024) (n : Fin 2048) (k : Fin 4096) :
    ridx_main_v15 (ix3 e t n) k = ix3 e k n :=
  funext fun a => Fin.ext (by match a with | ⟨0, _⟩ => rfl | ⟨1, _⟩ => rfl | ⟨2, _⟩ => rfl)
theorem lidx_v16 (e : Fin 8) (t : Fin 1024) (n : Fin 16) (k : Fin 4096) :
    lidx_main_v16 (ix3 e t n) k = ix3 e t k :=
  funext fun a => Fin.ext (by match a with | ⟨0, _⟩ => rfl | ⟨1, _⟩ => rfl | ⟨2, _⟩ => rfl)
theorem ridx_v16 (e : Fin 8) (t : Fin 1024) (n : Fin 16) (k : Fin 4096) :
    ridx_main_v16 (ix3 e t n) k = ix3 e k n :=
  funext fun a => Fin.ext (by match a with | ⟨0, _⟩ => rfl | ⟨1, _⟩ => rfl | ⟨2, _⟩ => rfl)
theorem lidx_v17 (e : Fin 8) (t : Fin 1024) (n : Fin 2048) (k : Fin 16) :
    lidx_main_v17 (ix3 e t n) k = ix3 e t k :=
  funext fun a => Fin.ext (by match a with | ⟨0, _⟩ => rfl | ⟨1, _⟩ => rfl | ⟨2, _⟩ => rfl)
theorem ridx_v17 (e : Fin 8) (t : Fin 1024) (n : Fin 2048) (k : Fin 16) :
    ridx_main_v17 (ix3 e t n) k = ix3 e k n :=
  funext fun a => Fin.ext (by match a with | ⟨0, _⟩ => rfl | ⟨1, _⟩ => rfl | ⟨2, _⟩ => rfl)

/-! One expert's projection with its rank-16 correction, as the reference computes it. -/

/-- The gate projection at (e, t, n): the base product plus twice the corrected product. -/
theorem gate_eq (x0 : (⟨S8192x2048, .f32⟩ : BufTy).Contents (Elt Ideal)) (x2 : (⟨S8x2048x4096, .f32⟩ : BufTy).Contents (Elt Ideal)) (x5 : (⟨S8x2048x16, .f32⟩ : BufTy).Contents (Elt Ideal)) (x6 : (⟨S8x16x4096, .f32⟩ : BufTy).Contents (Elt Ideal))
    (e : Fin 8) (t : Fin 1024) (n : Fin 4096) :
    val_main_v6 (F := Ideal) x0 x2 x5 x6 (ix3 e t n)
      = Moe.lin (fun t k => val_main_v0 (F := Ideal) x0 (ix3 e t k)) (fun k n => x2 (ix3 e k n)) (fun k r => x5 (ix3 e k r))
          (fun r n => x6 (ix3 e r n)) t n := by
  unfold Moe.lin
  rw [val_main_v6_apply, val_main_v1_apply, val_main_v5_apply, val_main_v4_apply, val_main_cst_apply, val_main_v3_apply]
  simp only [val_main_v2_apply, lidx_v1, ridx_v1, lidx_v2, ridx_v2, lidx_v3, ridx_v3, Ideal.addf_def, Ideal.mulf_def,
    Ideal.ofBits_def]

/-- The up projection at (e, t, n), in the same form. -/
theorem up_eq (x0 : (⟨S8192x2048, .f32⟩ : BufTy).Contents (Elt Ideal)) (x3 : (⟨S8x2048x4096, .f32⟩ : BufTy).Contents (Elt Ideal)) (x7 : (⟨S8x2048x16, .f32⟩ : BufTy).Contents (Elt Ideal)) (x8 : (⟨S8x16x4096, .f32⟩ : BufTy).Contents (Elt Ideal))
    (e : Fin 8) (t : Fin 1024) (n : Fin 4096) :
    val_main_v13 (F := Ideal) x0 x3 x7 x8 (ix3 e t n)
      = Moe.lin (fun t k => val_main_v0 (F := Ideal) x0 (ix3 e t k)) (fun k n => x3 (ix3 e k n)) (fun k r => x7 (ix3 e k r))
          (fun r n => x8 (ix3 e r n)) t n := by
  unfold Moe.lin
  rw [val_main_v13_apply, val_main_v8_apply, val_main_v12_apply, val_main_v11_apply, val_main_cst_0_apply, val_main_v10_apply]
  simp only [val_main_v9_apply, lidx_v8, ridx_v8, lidx_v9, ridx_v9, lidx_v10, ridx_v10, Ideal.addf_def, Ideal.mulf_def,
    Ideal.ofBits_def]

/-- The activation applied to the gate projection, element by element: v · (1 / (1 + e^(-v))). -/
theorem silu_eq (x0 : (⟨S8192x2048, .f32⟩ : BufTy).Contents (Elt Ideal)) (x2 : (⟨S8x2048x4096, .f32⟩ : BufTy).Contents (Elt Ideal)) (x5 : (⟨S8x2048x16, .f32⟩ : BufTy).Contents (Elt Ideal)) (x6 : (⟨S8x16x4096, .f32⟩ : BufTy).Contents (Elt Ideal))
    (i : S8x1024x4096.Idx) :
    val_main_v7 (F := Ideal) x0 x2 x5 x6 i = Moe.silu (val_main_v6 (F := Ideal) x0 x2 x5 x6 i) := by
  unfold Moe.silu
  rw [val_main_v7_apply, val_main_call0_v5_apply, val_main_call0_v4_apply, val_main_call0_cst_0_apply,
    val_main_call0_v3_apply, val_main_call0_v2_apply, val_main_call0_cst_apply, val_main_call0_v1_apply,
    val_main_call0_v0_apply]
  generalize val_main_v6 (F := Ideal) x0 x2 x5 x6 i = v
  simp only [Ideal.mulf_def, Ideal.hostDivf_def, Ideal.addf_def, Ideal.hostUnary_exp_def, Ideal.hostNegf_def,
    Ideal.negf_def, Ideal.ofBits_def]

/-- The hidden activation at (e, t, n): silu(gate) · up. -/
theorem hid_eq (x0 : (⟨S8192x2048, .f32⟩ : BufTy).Contents (Elt Ideal)) (x2 x3 : (⟨S8x2048x4096, .f32⟩ : BufTy).Contents (Elt Ideal)) (x5 : (⟨S8x2048x16, .f32⟩ : BufTy).Contents (Elt Ideal)) (x6 : (⟨S8x16x4096, .f32⟩ : BufTy).Contents (Elt Ideal)) (x7 : (⟨S8x2048x16, .f32⟩ : BufTy).Contents (Elt Ideal)) (x8 : (⟨S8x16x4096, .f32⟩ : BufTy).Contents (Elt Ideal))
    (e : Fin 8) (t : Fin 1024) (n : Fin 4096) :
    val_main_v14 (F := Ideal) x0 x2 x3 x5 x6 x7 x8 (ix3 e t n)
      = Moe.hidAt (val_main_v0 (F := Ideal) x0) x2 x3 x5 x7 x6 x8 e t n := by
  unfold Moe.hidAt Moe.hid
  rw [val_main_v14_apply, silu_eq, gate_eq, up_eq]
  simp only [Ideal.mulf_def]

/-- The result at (e, t, d): the hidden activation's projection with its correction. -/
theorem out_eq (x0 : (⟨S8192x2048, .f32⟩ : BufTy).Contents (Elt Ideal)) (x2 x3 : (⟨S8x2048x4096, .f32⟩ : BufTy).Contents (Elt Ideal)) (x4 : (⟨S8x4096x2048, .f32⟩ : BufTy).Contents (Elt Ideal)) (x5 : (⟨S8x2048x16, .f32⟩ : BufTy).Contents (Elt Ideal)) (x6 : (⟨S8x16x4096, .f32⟩ : BufTy).Contents (Elt Ideal)) (x7 : (⟨S8x2048x16, .f32⟩ : BufTy).Contents (Elt Ideal)) (x8 : (⟨S8x16x4096, .f32⟩ : BufTy).Contents (Elt Ideal)) (x9 : (⟨S8x4096x16, .f32⟩ : BufTy).Contents (Elt Ideal)) (x10 : (⟨S8x16x2048, .f32⟩ : BufTy).Contents (Elt Ideal))
    (e : Fin 8) (t : Fin 1024) (d : Fin 2048) :
    val_main_v20 (F := Ideal) x0 x2 x3 x4 x5 x6 x7 x8 x9 x10 (ix3 e t d)
      = Moe.out (val_main_v0 (F := Ideal) x0) x2 x3 x4 x5 x7 x6 x8 x9 x10 e t d := by
  unfold Moe.out Moe.lin
  rw [val_main_v20_apply, val_main_v15_apply, val_main_v19_apply, val_main_v18_apply, val_main_cst_1_apply,
    val_main_v17_apply]
  simp only [val_main_v16_apply, lidx_v15, ridx_v15, lidx_v16, ridx_v16, lidx_v17, ridx_v17, hid_eq, Ideal.addf_def,
    Ideal.mulf_def, Ideal.ofBits_def]

/-- The reference's result is the layer's result array of its arguments. -/
theorem ref_eq (x0 : (⟨S8192x2048, .f32⟩ : BufTy).Contents (Elt Ideal)) (x2 x3 : (⟨S8x2048x4096, .f32⟩ : BufTy).Contents (Elt Ideal)) (x4 : (⟨S8x4096x2048, .f32⟩ : BufTy).Contents (Elt Ideal)) (x5 : (⟨S8x2048x16, .f32⟩ : BufTy).Contents (Elt Ideal)) (x6 : (⟨S8x16x4096, .f32⟩ : BufTy).Contents (Elt Ideal)) (x7 : (⟨S8x2048x16, .f32⟩ : BufTy).Contents (Elt Ideal)) (x8 : (⟨S8x16x4096, .f32⟩ : BufTy).Contents (Elt Ideal)) (x9 : (⟨S8x4096x16, .f32⟩ : BufTy).Contents (Elt Ideal)) (x10 : (⟨S8x16x2048, .f32⟩ : BufTy).Contents (Elt Ideal)) :
    Cert.ReferenceIdeal.Read.val_main_v20 (F := Ideal) x0 x2 x3 x4 x5 x6 x7 x8 x9 x10
      = Cert.Moe.outArr (Cert.ReferenceIdeal.Read.val_main_v0 (F := Ideal) x0) x2 x3 x4 x5 x7 x6 x8 x9 x10 := by
  funext i
  obtain ⟨e, t, d, rfl⟩ : ∃ (e : Fin 8) (t : Fin 1024) (d : Fin 2048), i = ix3 e t d := ⟨i 0, i 1, i 2, eq_ix3 i⟩
  exact out_eq x0 x2 x3 x4 x5 x6 x7 x8 x9 x10 e t d

end Cert.ReferenceIdeal.RefValue

end
-- ==== Proof.KernelBlocks.lean ====
/-
  What each input window's block holds at a grid point. The 256 points are the pairs (expert e, hidden block h), point
  t = 32·e + h. Every block has a leading axis of extent one that selects expert e; a block of a weight array with a
  hidden axis selects the 128 hidden columns (or rows) of block h, the others are the expert's whole slice. So an entry
  of a block is the array's entry at expert e and, along a cut axis, at column 128·h + j.
-/
import proofs.«105736_j42949673290_2_alg».proof.Proof.Gen.KernelIdeal.Frame
import proofs.«105736_j42949673290_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The expert of point t. -/
def ept (t : Fin cfg0.N) : Fin 8 := ⟨t.val / 32, by have h : t.val < 256 := lt_of_lt_of_eq t.isLt (show cfg0.N = 256 from N_0); omega⟩

theorem ept_val (t : Fin cfg0.N) : (ept t).val = t.val / 32 := rfl

/-- Window 0's block index at point t. -/
theorem idx0 : ∀ t : Fin cfg0.N, win0_0.index t (0 : Fin 3) = t.val / 32 ∧ win0_0.index t (1 : Fin 3) = 0 ∧ win0_0.index t (2 : Fin 3) = 0 :=
  (by decide +kernel : ∀ t : Fin grid0.N, _)

/-- Window 1's block index at point t. -/
theorem idx1 : ∀ t : Fin cfg0.N, win0_1.index t (0 : Fin 3) = t.val / 32 ∧ win0_1.index t (1 : Fin 3) = 0 ∧ win0_1.index t (2 : Fin 3) = t.val % 32 :=
  (by decide +kernel : ∀ t : Fin grid0.N, _)

/-- Window 2's block index at point t. -/
theorem idx2 : ∀ t : Fin cfg0.N, win0_2.index t (0 : Fin 3) = t.val / 32 ∧ win0_2.index t (1 : Fin 3) = 0 ∧ win0_2.index t (2 : Fin 3) = t.val % 32 :=
  (by decide +kernel : ∀ t : Fin grid0.N, _)

/-- Window 3's block index at point t. -/
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, _)

/-- Window 4's block index at point t. -/
theorem idx4 : ∀ t : Fin cfg0.N, win0_4.index t (0 : Fin 3) = t.val / 32 ∧ win0_4.index t (1 : Fin 3) = 0 ∧ win0_4.index t (2 : Fin 3) = t.val % 32 :=
  (by decide +kernel : ∀ t : Fin grid0.N, _)

/-- Window 5's block index at point t. -/
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, _)

/-- Window 6's block index at point t. -/
theorem idx6 : ∀ t : Fin cfg0.N, win0_6.index t (0 : Fin 3) = t.val / 32 ∧ win0_6.index t (1 : Fin 3) = 0 ∧ win0_6.index t (2 : Fin 3) = t.val % 32 :=
  (by decide +kernel : ∀ t : Fin grid0.N, _)

/-- Window 7's block index at point t. -/
theorem idx7 : ∀ t : Fin cfg0.N, win0_7.index t (0 : Fin 3) = t.val / 32 ∧ win0_7.index t (1 : Fin 3) = t.val % 32 ∧ win0_7.index t (2 : Fin 3) = 0 :=
  (by decide +kernel : ∀ t : Fin grid0.N, _)

/-- Window 8's block index at point t. -/
theorem idx8 : ∀ t : Fin cfg0.N, win0_8.index t (0 : Fin 3) = t.val / 32 ∧ win0_8.index t (1 : Fin 3) = t.val % 32 ∧ win0_8.index t (2 : Fin 3) = 0 :=
  (by decide +kernel : ∀ t : Fin grid0.N, _)

/-- Window 9's block index at point t. -/
theorem idx9 : ∀ t : Fin cfg0.N, win0_9.index t (0 : Fin 3) = t.val / 32 ∧ win0_9.index t (1 : Fin 3) = 0 ∧ win0_9.index t (2 : Fin 3) = 0 :=
  (by decide +kernel : ∀ t : Fin grid0.N, _)

/-- An entry of window 0's block at point t is the array's entry at the point's expert. -/
theorem blk0 (c : Dev nD) (t : Fin cfg0.N) (a : Fin 1) (p : Fin 1024) (q : Fin 2048) :
    iblk m c 0 t (ix3 a p q) = V m c main_v0 (ix3 (ept t) (p) (q)) := by
  unfold iblk
  rw [View.read_apply]
  show V m c main_v0 _ = V m c main_v0 _
  refine congrArg (V m c main_v0) (funext fun b => Fin.ext ?_)
  obtain ⟨h0, h1, h2⟩ := idx0 t
  have ha : a.val = 0 := by have := a.isLt; omega
  have hq : q.val < 2048 := q.isLt
  have hp : p.val < 1024 := p.isLt
  have ht : t.val < 256 := lt_of_lt_of_eq t.isLt (show cfg0.N = 256 from N_0)
  match b with
  | ⟨0, _⟩ => show win0_0.index t (0 : Fin 3) * 1 + 1 * a.val = t.val / 32; rw [h0]; omega
  | ⟨1, _⟩ => show win0_0.index t (1 : Fin 3) * 1024 + 1 * p.val = p.val; rw [h1]; omega
  | ⟨2, _⟩ => show win0_0.index t (2 : Fin 3) * 2048 + 1 * q.val = q.val; rw [h2]; omega

/-- An entry of window 1's block at point t is the array's entry at the point's expert and hidden block. -/
theorem blk1 (c : Dev nD) (t : Fin cfg0.N) (a : Fin 1) (p : Fin 2048) (q : Fin 128) :
    iblk m c 1 t (ix3 a p q) = V m c main_arg2 (ix3 (ept t) (p) (Cert.Moe.col (t.val % 32) q)) := by
  unfold iblk
  rw [View.read_apply]
  show V m c main_arg2 _ = V m c main_arg2 _
  refine congrArg (V m c main_arg2) (funext fun b => Fin.ext ?_)
  obtain ⟨h0, h1, h2⟩ := idx1 t
  have ha : a.val = 0 := by have := a.isLt; omega
  have hq : q.val < 128 := q.isLt
  have hp : p.val < 2048 := p.isLt
  have ht : t.val < 256 := lt_of_lt_of_eq t.isLt (show cfg0.N = 256 from N_0)
  match b with
  | ⟨0, _⟩ => show win0_1.index t (0 : Fin 3) * 1 + 1 * a.val = t.val / 32; rw [h0]; omega
  | ⟨1, _⟩ => show win0_1.index t (1 : Fin 3) * 2048 + 1 * p.val = p.val; rw [h1]; omega
  | ⟨2, _⟩ => show win0_1.index t (2 : Fin 3) * 128 + 1 * q.val = (t.val % 32 * 128 + q.val) % 4096; rw [h2]; omega

/-- An entry of window 2's block at point t is the array's entry at the point's expert and hidden block. -/
theorem blk2 (c : Dev nD) (t : Fin cfg0.N) (a : Fin 1) (p : Fin 2048) (q : Fin 128) :
    iblk m c 2 t (ix3 a p q) = V m c main_arg3 (ix3 (ept t) (p) (Cert.Moe.col (t.val % 32) q)) := by
  unfold iblk
  rw [View.read_apply]
  show V m c main_arg3 _ = V m c main_arg3 _
  refine congrArg (V m c main_arg3) (funext fun b => Fin.ext ?_)
  obtain ⟨h0, h1, h2⟩ := idx2 t
  have ha : a.val = 0 := by have := a.isLt; omega
  have hq : q.val < 128 := q.isLt
  have hp : p.val < 2048 := p.isLt
  have ht : t.val < 256 := lt_of_lt_of_eq t.isLt (show cfg0.N = 256 from N_0)
  match b with
  | ⟨0, _⟩ => show win0_2.index t (0 : Fin 3) * 1 + 1 * a.val = t.val / 32; rw [h0]; omega
  | ⟨1, _⟩ => show win0_2.index t (1 : Fin 3) * 2048 + 1 * p.val = p.val; rw [h1]; omega
  | ⟨2, _⟩ => show win0_2.index t (2 : Fin 3) * 128 + 1 * q.val = (t.val % 32 * 128 + q.val) % 4096; rw [h2]; omega

/-- An entry of window 3's block at point t is the array's entry at the point's expert. -/
theorem blk3 (c : Dev nD) (t : Fin cfg0.N) (a : Fin 1) (p : Fin 2048) (q : Fin 16) :
    iblk m c 3 t (ix3 a p q) = V m c main_arg5 (ix3 (ept t) (p) (q)) := by
  unfold iblk
  rw [View.read_apply]
  show V m c main_arg5 _ = V m c main_arg5 _
  refine congrArg (V m c main_arg5) (funext fun b => Fin.ext ?_)
  obtain ⟨h0, h1, h2⟩ := idx3 t
  have ha : a.val = 0 := by have := a.isLt; omega
  have hq : q.val < 16 := q.isLt
  have hp : p.val < 2048 := p.isLt
  have ht : t.val < 256 := lt_of_lt_of_eq t.isLt (show cfg0.N = 256 from N_0)
  match b with
  | ⟨0, _⟩ => show win0_3.index t (0 : Fin 3) * 1 + 1 * a.val = t.val / 32; rw [h0]; omega
  | ⟨1, _⟩ => show win0_3.index t (1 : Fin 3) * 2048 + 1 * p.val = p.val; rw [h1]; omega
  | ⟨2, _⟩ => show win0_3.index t (2 : Fin 3) * 16 + 1 * q.val = q.val; rw [h2]; omega

/-- An entry of window 4's block at point t is the array's entry at the point's expert and hidden block. -/
theorem blk4 (c : Dev nD) (t : Fin cfg0.N) (a : Fin 1) (p : Fin 16) (q : Fin 128) :
    iblk m c 4 t (ix3 a p q) = V m c main_arg6 (ix3 (ept t) (p) (Cert.Moe.col (t.val % 32) q)) := by
  unfold iblk
  rw [View.read_apply]
  show V m c main_arg6 _ = V m c main_arg6 _
  refine congrArg (V m c main_arg6) (funext fun b => Fin.ext ?_)
  obtain ⟨h0, h1, h2⟩ := idx4 t
  have ha : a.val = 0 := by have := a.isLt; omega
  have hq : q.val < 128 := q.isLt
  have hp : p.val < 16 := p.isLt
  have ht : t.val < 256 := lt_of_lt_of_eq t.isLt (show cfg0.N = 256 from N_0)
  match b with
  | ⟨0, _⟩ => show win0_4.index t (0 : Fin 3) * 1 + 1 * a.val = t.val / 32; rw [h0]; omega
  | ⟨1, _⟩ => show win0_4.index t (1 : Fin 3) * 16 + 1 * p.val = p.val; rw [h1]; omega
  | ⟨2, _⟩ => show win0_4.index t (2 : Fin 3) * 128 + 1 * q.val = (t.val % 32 * 128 + q.val) % 4096; rw [h2]; omega

/-- An entry of window 5's block at point t is the array's entry at the point's expert. -/
theorem blk5 (c : Dev nD) (t : Fin cfg0.N) (a : Fin 1) (p : Fin 2048) (q : Fin 16) :
    iblk m c 5 t (ix3 a p q) = V m c main_arg7 (ix3 (ept t) (p) (q)) := by
  unfold iblk
  rw [View.read_apply]
  show V m c main_arg7 _ = V m c main_arg7 _
  refine congrArg (V m c main_arg7) (funext fun b => Fin.ext ?_)
  obtain ⟨h0, h1, h2⟩ := idx5 t
  have ha : a.val = 0 := by have := a.isLt; omega
  have hq : q.val < 16 := q.isLt
  have hp : p.val < 2048 := p.isLt
  have ht : t.val < 256 := lt_of_lt_of_eq t.isLt (show cfg0.N = 256 from N_0)
  match b with
  | ⟨0, _⟩ => show win0_5.index t (0 : Fin 3) * 1 + 1 * a.val = t.val / 32; rw [h0]; omega
  | ⟨1, _⟩ => show win0_5.index t (1 : Fin 3) * 2048 + 1 * p.val = p.val; rw [h1]; omega
  | ⟨2, _⟩ => show win0_5.index t (2 : Fin 3) * 16 + 1 * q.val = q.val; rw [h2]; omega

/-- An entry of window 6's block at point t is the array's entry at the point's expert and hidden block. -/
theorem blk6 (c : Dev nD) (t : Fin cfg0.N) (a : Fin 1) (p : Fin 16) (q : Fin 128) :
    iblk m c 6 t (ix3 a p q) = V m c main_arg8 (ix3 (ept t) (p) (Cert.Moe.col (t.val % 32) q)) := by
  unfold iblk
  rw [View.read_apply]
  show V m c main_arg8 _ = V m c main_arg8 _
  refine congrArg (V m c main_arg8) (funext fun b => Fin.ext ?_)
  obtain ⟨h0, h1, h2⟩ := idx6 t
  have ha : a.val = 0 := by have := a.isLt; omega
  have hq : q.val < 128 := q.isLt
  have hp : p.val < 16 := p.isLt
  have ht : t.val < 256 := lt_of_lt_of_eq t.isLt (show cfg0.N = 256 from N_0)
  match b with
  | ⟨0, _⟩ => show win0_6.index t (0 : Fin 3) * 1 + 1 * a.val = t.val / 32; rw [h0]; omega
  | ⟨1, _⟩ => show win0_6.index t (1 : Fin 3) * 16 + 1 * p.val = p.val; rw [h1]; omega
  | ⟨2, _⟩ => show win0_6.index t (2 : Fin 3) * 128 + 1 * q.val = (t.val % 32 * 128 + q.val) % 4096; rw [h2]; omega

/-- An entry of window 7's block at point t is the array's entry at the point's expert and hidden block. -/
theorem blk7 (c : Dev nD) (t : Fin cfg0.N) (a : Fin 1) (p : Fin 128) (q : Fin 2048) :
    iblk m c 7 t (ix3 a p q) = V m c main_arg4 (ix3 (ept t) (Cert.Moe.col (t.val % 32) p) (q)) := by
  unfold iblk
  rw [View.read_apply]
  show V m c main_arg4 _ = V m c main_arg4 _
  refine congrArg (V m c main_arg4) (funext fun b => Fin.ext ?_)
  obtain ⟨h0, h1, h2⟩ := idx7 t
  have ha : a.val = 0 := by have := a.isLt; omega
  have hq : q.val < 2048 := q.isLt
  have hp : p.val < 128 := p.isLt
  have ht : t.val < 256 := lt_of_lt_of_eq t.isLt (show cfg0.N = 256 from N_0)
  match b with
  | ⟨0, _⟩ => show win0_7.index t (0 : Fin 3) * 1 + 1 * a.val = t.val / 32; rw [h0]; omega
  | ⟨1, _⟩ => show win0_7.index t (1 : Fin 3) * 128 + 1 * p.val = (t.val % 32 * 128 + p.val) % 4096; rw [h1]; omega
  | ⟨2, _⟩ => show win0_7.index t (2 : Fin 3) * 2048 + 1 * q.val = q.val; rw [h2]; omega

/-- An entry of window 8's block at point t is the array's entry at the point's expert and hidden block. -/
theorem blk8 (c : Dev nD) (t : Fin cfg0.N) (a : Fin 1) (p : Fin 128) (q : Fin 16) :
    iblk m c 8 t (ix3 a p q) = V m c main_arg9 (ix3 (ept t) (Cert.Moe.col (t.val % 32) p) (q)) := by
  unfold iblk
  rw [View.read_apply]
  show V m c main_arg9 _ = V m c main_arg9 _
  refine congrArg (V m c main_arg9) (funext fun b => Fin.ext ?_)
  obtain ⟨h0, h1, h2⟩ := idx8 t
  have ha : a.val = 0 := by have := a.isLt; omega
  have hq : q.val < 16 := q.isLt
  have hp : p.val < 128 := p.isLt
  have ht : t.val < 256 := lt_of_lt_of_eq t.isLt (show cfg0.N = 256 from N_0)
  match b with
  | ⟨0, _⟩ => show win0_8.index t (0 : Fin 3) * 1 + 1 * a.val = t.val / 32; rw [h0]; omega
  | ⟨1, _⟩ => show win0_8.index t (1 : Fin 3) * 128 + 1 * p.val = (t.val % 32 * 128 + p.val) % 4096; rw [h1]; omega
  | ⟨2, _⟩ => show win0_8.index t (2 : Fin 3) * 16 + 1 * q.val = q.val; rw [h2]; omega

/-- An entry of window 9's block at point t is the array's entry at the point's expert. -/
theorem blk9 (c : Dev nD) (t : Fin cfg0.N) (a : Fin 1) (p : Fin 16) (q : Fin 2048) :
    iblk m c 9 t (ix3 a p q) = V m c main_arg10 (ix3 (ept t) (p) (q)) := by
  unfold iblk
  rw [View.read_apply]
  show V m c main_arg10 _ = V m c main_arg10 _
  refine congrArg (V m c main_arg10) (funext fun b => Fin.ext ?_)
  obtain ⟨h0, h1, h2⟩ := idx9 t
  have ha : a.val = 0 := by have := a.isLt; omega
  have hq : q.val < 2048 := q.isLt
  have hp : p.val < 16 := p.isLt
  have ht : t.val < 256 := lt_of_lt_of_eq t.isLt (show cfg0.N = 256 from N_0)
  match b with
  | ⟨0, _⟩ => show win0_9.index t (0 : Fin 3) * 1 + 1 * a.val = t.val / 32; rw [h0]; omega
  | ⟨1, _⟩ => show win0_9.index t (1 : Fin 3) * 16 + 1 * p.val = p.val; rw [h1]; omega
  | ⟨2, _⟩ => show win0_9.index t (2 : Fin 3) * 2048 + 1 * q.val = q.val; rw [h2]; omega

end Cert.KernelIdeal.Blocks

end
-- ==== Proof.KernelPieces.lean ====
/-
  What one run of the kernel body leaves behind, case by case, as values. The body keeps two running totals between grid
  points: one of the base product and one of the correction's inner product. At an expert's first hidden block it stores zeros
  into both and then adds this block's products; at every later block it adds this block's products to what the block
  before left; at the expert's last block it also stores the result block: the first total plus twice the second total's
  product with the last factor. Each store covers its whole buffer, so what a buffer holds afterwards is the stored value.
-/
import proofs.«105736_j42949673290_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case B (a middle hidden block), first running total: what the block before left plus this block's base product. -/
theorem sB0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x16 .f32) (harg5 : arg5.IsWhole) (arg6 : Memref sig .tc .vmem S1x16x128 .f32) (harg6 : arg6.IsWhole) (arg7 : Memref sig .tc .vmem S1x2048x16 .f32) (harg7 : arg7.IsWhole) (arg8 : Memref sig .tc .vmem S1x16x128 .f32) (harg8 : arg8.IsWhole) (arg9 : Memref sig .tc .vmem S1x128x2048 .f32) (harg9 : arg9.IsWhole) (arg10 : Memref sig .tc .vmem S1x128x16 .f32) (harg10 : arg10.IsWhole) (arg11 : Memref sig .tc .vmem S1x16x2048 .f32) (harg11 : arg11.IsWhole) (arg12 : Memref sig .tc .vmem S1x1024x2048 .f32) (harg12 : arg12.IsWhole) (arg13 : Memref sig .tc .vmem S1024x2048 .f32) (harg13 : arg13.IsWhole) (arg14 : Memref sig .tc .vmem S1024x16 .f32) (harg14 : arg14.IsWhole) (hc0 : ¬cond0_0 i) (hc1 : ¬cond0_1 i)
    (x0 : Vec F S1x1024x2048 .f32) (x1 : Vec F S1x2048x128 .f32) (x2 : Vec F S1x2048x128 .f32) (x3 : Vec F S1x2048x16 .f32) (x4 : Vec F S1x16x128 .f32) (x5 : Vec F S1x2048x16 .f32) (x6 : Vec F S1x16x128 .f32) (x7 : Vec F S1x128x2048 .f32) (x8 : Vec F S1x128x16 .f32) (x9 : Vec F S1x16x2048 .f32) (xs0 : Vec F S1024x2048 .f32) (xs1 : Vec F S1024x16 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay11 (k0_pay3 x0) (k0_pay4 x0) (k0_pay5 x2) (k0_pay6 x5) (k0_pay7 x6) (k0_pay8 x0 x1 x3 x4) (k0_pay9 x0 x1 x3 x4) x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x1024x2048) hz3, View.ld_unit_zero (S := S1x2048x128) hz3, View.ld_unit_zero (S := S1x2048x16) hz3, View.ld_unit_zero (S := S1x16x128) hz3, View.ld_unit_zero (S := S1x128x2048) hz3, View.ld_unit_zero (S := S1x128x16) hz3, View.ld_unit_zero (S := S1x16x2048) hz3, View.ld_unit_zero (S := S1024x2048) hz2, View.ld_unit_zero (S := S1024x16) hz2]

/-- Case B, second running total. -/
theorem sB1 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x16 .f32) (harg5 : arg5.IsWhole) (arg6 : Memref sig .tc .vmem S1x16x128 .f32) (harg6 : arg6.IsWhole) (arg7 : Memref sig .tc .vmem S1x2048x16 .f32) (harg7 : arg7.IsWhole) (arg8 : Memref sig .tc .vmem S1x16x128 .f32) (harg8 : arg8.IsWhole) (arg9 : Memref sig .tc .vmem S1x128x2048 .f32) (harg9 : arg9.IsWhole) (arg10 : Memref sig .tc .vmem S1x128x16 .f32) (harg10 : arg10.IsWhole) (arg11 : Memref sig .tc .vmem S1x16x2048 .f32) (harg11 : arg11.IsWhole) (arg12 : Memref sig .tc .vmem S1x1024x2048 .f32) (harg12 : arg12.IsWhole) (arg13 : Memref sig .tc .vmem S1024x2048 .f32) (harg13 : arg13.IsWhole) (arg14 : Memref sig .tc .vmem S1024x16 .f32) (harg14 : arg14.IsWhole) (hc0 : ¬cond0_0 i) (hc1 : ¬cond0_1 i)
    (x0 : Vec F S1x1024x2048 .f32) (x1 : Vec F S1x2048x128 .f32) (x2 : Vec F S1x2048x128 .f32) (x3 : Vec F S1x2048x16 .f32) (x4 : Vec F S1x16x128 .f32) (x5 : Vec F S1x2048x16 .f32) (x6 : Vec F S1x16x128 .f32) (x7 : Vec F S1x128x2048 .f32) (x8 : Vec F S1x128x16 .f32) (x9 : Vec F S1x16x2048 .f32) (xs0 : Vec F S1024x2048 .f32) (xs1 : Vec F S1024x16 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay12 (k0_pay3 x0) (k0_pay4 x0) (k0_pay5 x2) (k0_pay6 x5) (k0_pay7 x6) (k0_pay8 x0 x1 x3 x4) (k0_pay9 x0 x1 x3 x4) x8 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x1024x2048) hz3, View.ld_unit_zero (S := S1x2048x128) hz3, View.ld_unit_zero (S := S1x2048x16) hz3, View.ld_unit_zero (S := S1x16x128) hz3, View.ld_unit_zero (S := S1x128x2048) hz3, View.ld_unit_zero (S := S1x128x16) hz3, View.ld_unit_zero (S := S1x16x2048) hz3, View.ld_unit_zero (S := S1024x2048) hz2, View.ld_unit_zero (S := S1024x16) hz2]

/-- Case C (an expert's last hidden block): the running totals grow as in a middle block, -/
theorem sC0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x16 .f32) (harg5 : arg5.IsWhole) (arg6 : Memref sig .tc .vmem S1x16x128 .f32) (harg6 : arg6.IsWhole) (arg7 : Memref sig .tc .vmem S1x2048x16 .f32) (harg7 : arg7.IsWhole) (arg8 : Memref sig .tc .vmem S1x16x128 .f32) (harg8 : arg8.IsWhole) (arg9 : Memref sig .tc .vmem S1x128x2048 .f32) (harg9 : arg9.IsWhole) (arg10 : Memref sig .tc .vmem S1x128x16 .f32) (harg10 : arg10.IsWhole) (arg11 : Memref sig .tc .vmem S1x16x2048 .f32) (harg11 : arg11.IsWhole) (arg12 : Memref sig .tc .vmem S1x1024x2048 .f32) (harg12 : arg12.IsWhole) (arg13 : Memref sig .tc .vmem S1024x2048 .f32) (harg13 : arg13.IsWhole) (arg14 : Memref sig .tc .vmem S1024x16 .f32) (harg14 : arg14.IsWhole) (hc0 : ¬cond0_0 i) (hc1 : cond0_1 i)
    (x0 : Vec F S1x1024x2048 .f32) (x1 : Vec F S1x2048x128 .f32) (x2 : Vec F S1x2048x128 .f32) (x3 : Vec F S1x2048x16 .f32) (x4 : Vec F S1x16x128 .f32) (x5 : Vec F S1x2048x16 .f32) (x6 : Vec F S1x16x128 .f32) (x7 : Vec F S1x128x2048 .f32) (x8 : Vec F S1x128x16 .f32) (x9 : Vec F S1x16x2048 .f32) (xs0 : Vec F S1024x2048 .f32) (xs1 : Vec F S1024x16 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay11 (k0_pay3 x0) (k0_pay4 x0) (k0_pay5 x2) (k0_pay6 x5) (k0_pay7 x6) (k0_pay8 x0 x1 x3 x4) (k0_pay9 x0 x1 x3 x4) x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x1024x2048) hz3, View.ld_unit_zero (S := S1x2048x128) hz3, View.ld_unit_zero (S := S1x2048x16) hz3, View.ld_unit_zero (S := S1x16x128) hz3, View.ld_unit_zero (S := S1x128x2048) hz3, View.ld_unit_zero (S := S1x128x16) hz3, View.ld_unit_zero (S := S1x16x2048) hz3, View.ld_unit_zero (S := S1024x2048) hz2, View.ld_unit_zero (S := S1024x16) hz2]

theorem sC1 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x16 .f32) (harg5 : arg5.IsWhole) (arg6 : Memref sig .tc .vmem S1x16x128 .f32) (harg6 : arg6.IsWhole) (arg7 : Memref sig .tc .vmem S1x2048x16 .f32) (harg7 : arg7.IsWhole) (arg8 : Memref sig .tc .vmem S1x16x128 .f32) (harg8 : arg8.IsWhole) (arg9 : Memref sig .tc .vmem S1x128x2048 .f32) (harg9 : arg9.IsWhole) (arg10 : Memref sig .tc .vmem S1x128x16 .f32) (harg10 : arg10.IsWhole) (arg11 : Memref sig .tc .vmem S1x16x2048 .f32) (harg11 : arg11.IsWhole) (arg12 : Memref sig .tc .vmem S1x1024x2048 .f32) (harg12 : arg12.IsWhole) (arg13 : Memref sig .tc .vmem S1024x2048 .f32) (harg13 : arg13.IsWhole) (arg14 : Memref sig .tc .vmem S1024x16 .f32) (harg14 : arg14.IsWhole) (hc0 : ¬cond0_0 i) (hc1 : cond0_1 i)
    (x0 : Vec F S1x1024x2048 .f32) (x1 : Vec F S1x2048x128 .f32) (x2 : Vec F S1x2048x128 .f32) (x3 : Vec F S1x2048x16 .f32) (x4 : Vec F S1x16x128 .f32) (x5 : Vec F S1x2048x16 .f32) (x6 : Vec F S1x16x128 .f32) (x7 : Vec F S1x128x2048 .f32) (x8 : Vec F S1x128x16 .f32) (x9 : Vec F S1x16x2048 .f32) (xs0 : Vec F S1024x2048 .f32) (xs1 : Vec F S1024x16 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay12 (k0_pay3 x0) (k0_pay4 x0) (k0_pay5 x2) (k0_pay6 x5) (k0_pay7 x6) (k0_pay8 x0 x1 x3 x4) (k0_pay9 x0 x1 x3 x4) x8 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x1024x2048) hz3, View.ld_unit_zero (S := S1x2048x128) hz3, View.ld_unit_zero (S := S1x2048x16) hz3, View.ld_unit_zero (S := S1x16x128) hz3, View.ld_unit_zero (S := S1x128x2048) hz3, View.ld_unit_zero (S := S1x128x16) hz3, View.ld_unit_zero (S := S1x16x2048) hz3, View.ld_unit_zero (S := S1024x2048) hz2, View.ld_unit_zero (S := S1024x16) hz2]

/-- and the result block is stored: the first total plus twice the second total's product with the last factor, both
    totals read back after this block's additions. -/
theorem oC (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x16 .f32) (harg5 : arg5.IsWhole) (arg6 : Memref sig .tc .vmem S1x16x128 .f32) (harg6 : arg6.IsWhole) (arg7 : Memref sig .tc .vmem S1x2048x16 .f32) (harg7 : arg7.IsWhole) (arg8 : Memref sig .tc .vmem S1x16x128 .f32) (harg8 : arg8.IsWhole) (arg9 : Memref sig .tc .vmem S1x128x2048 .f32) (harg9 : arg9.IsWhole) (arg10 : Memref sig .tc .vmem S1x128x16 .f32) (harg10 : arg10.IsWhole) (arg11 : Memref sig .tc .vmem S1x16x2048 .f32) (harg11 : arg11.IsWhole) (arg12 : Memref sig .tc .vmem S1x1024x2048 .f32) (harg12 : arg12.IsWhole) (arg13 : Memref sig .tc .vmem S1024x2048 .f32) (harg13 : arg13.IsWhole) (arg14 : Memref sig .tc .vmem S1024x16 .f32) (harg14 : arg14.IsWhole) (hc0 : ¬cond0_0 i) (hc1 : cond0_1 i)
    (x0 : Vec F S1x1024x2048 .f32) (x1 : Vec F S1x2048x128 .f32) (x2 : Vec F S1x2048x128 .f32) (x3 : Vec F S1x2048x16 .f32) (x4 : Vec F S1x16x128 .f32) (x5 : Vec F S1x2048x16 .f32) (x6 : Vec F S1x16x128 .f32) (x7 : Vec F S1x128x2048 .f32) (x8 : Vec F S1x128x16 .f32) (x9 : Vec F S1x16x2048 .f32) (xs0 : Vec F S1024x2048 .f32) (xs1 : Vec F S1024x16 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay13 x9 (k0_pay12 (k0_pay3 x0) (k0_pay4 x0) (k0_pay5 x2) (k0_pay6 x5) (k0_pay7 x6) (k0_pay8 x0 x1 x3 x4) (k0_pay9 x0 x1 x3 x4) x8 xs1) (k0_pay11 (k0_pay3 x0) (k0_pay4 x0) (k0_pay5 x2) (k0_pay6 x5) (k0_pay7 x6) (k0_pay8 x0 x1 x3 x4) (k0_pay9 x0 x1 x3 x4) x7 xs0) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x1024x2048) hz3, View.ld_unit_zero (S := S1x2048x128) hz3, View.ld_unit_zero (S := S1x2048x16) hz3, View.ld_unit_zero (S := S1x16x128) hz3, View.ld_unit_zero (S := S1x128x2048) hz3, View.ld_unit_zero (S := S1x128x16) hz3, View.ld_unit_zero (S := S1x16x2048) hz3, View.ld_unit_zero (S := S1024x2048) hz2, View.ld_unit_zero (S := S1024x16) hz2, View.readCov_unit_zero (S := S1024x2048) _ hz2, View.readCov_unit_zero (S := S1024x16) _ hz2]

/-- Case A (an expert's first hidden block): zeros are stored first, then this block's products are added to them. -/
theorem sA0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x16 .f32) (harg5 : arg5.IsWhole) (arg6 : Memref sig .tc .vmem S1x16x128 .f32) (harg6 : arg6.IsWhole) (arg7 : Memref sig .tc .vmem S1x2048x16 .f32) (harg7 : arg7.IsWhole) (arg8 : Memref sig .tc .vmem S1x16x128 .f32) (harg8 : arg8.IsWhole) (arg9 : Memref sig .tc .vmem S1x128x2048 .f32) (harg9 : arg9.IsWhole) (arg10 : Memref sig .tc .vmem S1x128x16 .f32) (harg10 : arg10.IsWhole) (arg11 : Memref sig .tc .vmem S1x16x2048 .f32) (harg11 : arg11.IsWhole) (arg12 : Memref sig .tc .vmem S1x1024x2048 .f32) (harg12 : arg12.IsWhole) (arg13 : Memref sig .tc .vmem S1024x2048 .f32) (harg13 : arg13.IsWhole) (arg14 : Memref sig .tc .vmem S1024x16 .f32) (harg14 : arg14.IsWhole) (hc0 : cond0_0 i) (hc1 : ¬cond0_1 i)
    (x0 : Vec F S1x1024x2048 .f32) (x1 : Vec F S1x2048x128 .f32) (x2 : Vec F S1x2048x128 .f32) (x3 : Vec F S1x2048x16 .f32) (x4 : Vec F S1x16x128 .f32) (x5 : Vec F S1x2048x16 .f32) (x6 : Vec F S1x16x128 .f32) (x7 : Vec F S1x128x2048 .f32) (x8 : Vec F S1x128x16 .f32) (x9 : Vec F S1x16x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay11 (k0_pay3 x0) (k0_pay4 x0) (k0_pay5 x2) (k0_pay6 x5) (k0_pay7 x6) (k0_pay8 x0 x1 x3 x4) (k0_pay9 x0 x1 x3 x4) x7 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S1024x2048) hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x1024x2048) hz3, View.ld_unit_zero (S := S1x2048x128) hz3, View.ld_unit_zero (S := S1x2048x16) hz3, View.ld_unit_zero (S := S1x16x128) hz3, View.ld_unit_zero (S := S1x128x2048) hz3, View.ld_unit_zero (S := S1x128x16) hz3, View.ld_unit_zero (S := S1x16x2048) hz3, View.ld_unit_zero (S := S1024x2048) hz2, View.ld_unit_zero (S := S1024x16) hz2, View.readCov_unit_zero (S := S1024x2048) _ hz2]

theorem sA1 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x16 .f32) (harg5 : arg5.IsWhole) (arg6 : Memref sig .tc .vmem S1x16x128 .f32) (harg6 : arg6.IsWhole) (arg7 : Memref sig .tc .vmem S1x2048x16 .f32) (harg7 : arg7.IsWhole) (arg8 : Memref sig .tc .vmem S1x16x128 .f32) (harg8 : arg8.IsWhole) (arg9 : Memref sig .tc .vmem S1x128x2048 .f32) (harg9 : arg9.IsWhole) (arg10 : Memref sig .tc .vmem S1x128x16 .f32) (harg10 : arg10.IsWhole) (arg11 : Memref sig .tc .vmem S1x16x2048 .f32) (harg11 : arg11.IsWhole) (arg12 : Memref sig .tc .vmem S1x1024x2048 .f32) (harg12 : arg12.IsWhole) (arg13 : Memref sig .tc .vmem S1024x2048 .f32) (harg13 : arg13.IsWhole) (arg14 : Memref sig .tc .vmem S1024x16 .f32) (harg14 : arg14.IsWhole) (hc0 : cond0_0 i) (hc1 : ¬cond0_1 i)
    (x0 : Vec F S1x1024x2048 .f32) (x1 : Vec F S1x2048x128 .f32) (x2 : Vec F S1x2048x128 .f32) (x3 : Vec F S1x2048x16 .f32) (x4 : Vec F S1x16x128 .f32) (x5 : Vec F S1x2048x16 .f32) (x6 : Vec F S1x16x128 .f32) (x7 : Vec F S1x128x2048 .f32) (x8 : Vec F S1x128x16 .f32) (x9 : Vec F S1x16x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay12 (k0_pay3 x0) (k0_pay4 x0) (k0_pay5 x2) (k0_pay6 x5) (k0_pay7 x6) (k0_pay8 x0 x1 x3 x4) (k0_pay9 x0 x1 x3 x4) x8 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S1024x16) hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x1024x2048) hz3, View.ld_unit_zero (S := S1x2048x128) hz3, View.ld_unit_zero (S := S1x2048x16) hz3, View.ld_unit_zero (S := S1x16x128) hz3, View.ld_unit_zero (S := S1x128x2048) hz3, View.ld_unit_zero (S := S1x128x16) hz3, View.ld_unit_zero (S := S1x16x2048) hz3, View.ld_unit_zero (S := S1024x2048) hz2, View.ld_unit_zero (S := S1024x16) hz2, View.readCov_unit_zero (S := S1024x16) _ hz2]

end Cert.KernelIdeal.Pieces

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.KernelPoint.lean ====
/-
  The kernel body's arithmetic read at one element, over the extended reals.

  Each block of the body is a plain function of the blocks it reads. At the ideal instance a float is an extended real,
  a narrowing format change is the identity, and a matrix product accumulated into the zero splat is the plain sum over
  the contracted axis. Read at one index the body's values are therefore: the hidden block silu(gate) · up, with gate and
  up two projections with their rank-16 corrections; the two running sums, each its previous value plus one block's sum
  over the 128 hidden columns; and the last value, the first running sum plus twice the product of the second with the
  last factor.
-/
import proofs.«105736_j42949673290_2_alg».proof.Proof.Gen.KernelIdeal.Skeleton
import proofs.«105736_j42949673290_2_alg».proof.Proof.Spec
import proofs.«105736_j42949673290_2_alg».proof.Proof.LibDotSum
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-! ## Each record's contraction is a sum over its one contracted axis -/

/-- Rows × 2048 by 2048 × 128: the contraction's sum is the sum over the 2048 shared coordinates. -/
theorem sumA {α : Type} [AddCommMonoid α] (f : S1024x2048.Idx → S2048x128.Idx → α) (j : S1024x128.Idx) :
    ∑ k : dot_S1024x2048_S2048x128_S1024x128_1_0_0_1_n_n.contr.Idx, f (dot_S1024x2048_S2048x128_S1024x128_1_0_0_1_n_n.lhsIdx j k) (dot_S1024x2048_S2048x128_S1024x128_1_0_0_1_n_n.rhsIdx j k)
      = ∑ k : Fin 2048, f (ix2 (j 0) k) (ix2 k (j 1)) :=
  Cert.LibDotSum.plain dot_S1024x2048_S2048x128_S1024x128_1_0_0_1_n_n rfl rfl
    (fun j k => by
      unfold DotDims.lhsIdx
      rw [dif_neg (show ¬(0 : Fin S1024x2048.rank) ∈ dot_S1024x2048_S2048x128_S1024x128_1_0_0_1_n_n.lhsBatch by decide),
        dif_pos (show (0 : Fin S1024x2048.rank) ∈ dot_S1024x2048_S2048x128_S1024x128_1_0_0_1_n_n.lhsNonContracting by decide)]
      rfl)
    (fun j k => dot_S1024x2048_S2048x128_S1024x128_1_0_0_1_n_n.lhsIdx_val_of_single rfl j k)
    (fun j k => dot_S1024x2048_S2048x128_S1024x128_1_0_0_1_n_n.rhsIdx_val_of_single rfl j k)
    (fun j k => by
      unfold DotDims.rhsIdx
      rw [dif_neg (show ¬(1 : Fin S2048x128.rank) ∈ dot_S1024x2048_S2048x128_S1024x128_1_0_0_1_n_n.rhsBatch by decide),
        dif_pos (show (1 : Fin S2048x128.rank) ∈ dot_S1024x2048_S2048x128_S1024x128_1_0_0_1_n_n.rhsNonContracting by decide)]
      rfl)
    f j

/-- Rows × 2048 by 2048 × 16: the contraction's sum is the sum over the 2048 shared coordinates. -/
theorem sumB {α : Type} [AddCommMonoid α] (f : S1024x2048.Idx → S2048x16.Idx → α) (j : S1024x16.Idx) :
    ∑ k : dot_S1024x2048_S2048x16_S1024x16_1_0_0_1_n_n.contr.Idx, f (dot_S1024x2048_S2048x16_S1024x16_1_0_0_1_n_n.lhsIdx j k) (dot_S1024x2048_S2048x16_S1024x16_1_0_0_1_n_n.rhsIdx j k)
      = ∑ k : Fin 2048, f (ix2 (j 0) k) (ix2 k (j 1)) :=
  Cert.LibDotSum.plain dot_S1024x2048_S2048x16_S1024x16_1_0_0_1_n_n rfl rfl
    (fun j k => by
      unfold DotDims.lhsIdx
      rw [dif_neg (show ¬(0 : Fin S1024x2048.rank) ∈ dot_S1024x2048_S2048x16_S1024x16_1_0_0_1_n_n.lhsBatch by decide),
        dif_pos (show (0 : Fin S1024x2048.rank) ∈ dot_S1024x2048_S2048x16_S1024x16_1_0_0_1_n_n.lhsNonContracting by decide)]
      rfl)
    (fun j k => dot_S1024x2048_S2048x16_S1024x16_1_0_0_1_n_n.lhsIdx_val_of_single rfl j k)
    (fun j k => dot_S1024x2048_S2048x16_S1024x16_1_0_0_1_n_n.rhsIdx_val_of_single rfl j k)
    (fun j k => by
      unfold DotDims.rhsIdx
      rw [dif_neg (show ¬(1 : Fin S2048x16.rank) ∈ dot_S1024x2048_S2048x16_S1024x16_1_0_0_1_n_n.rhsBatch by decide),
        dif_pos (show (1 : Fin S2048x16.rank) ∈ dot_S1024x2048_S2048x16_S1024x16_1_0_0_1_n_n.rhsNonContracting by decide)]
      rfl)
    f j

/-- Rows × 16 by 16 × 128: the contraction's sum is the sum over the 16 shared coordinates. -/
theorem sumC {α : Type} [AddCommMonoid α] (f : S1024x16.Idx → S16x128.Idx → α) (j : S1024x128.Idx) :
    ∑ k : dot_S1024x16_S16x128_S1024x128_1_0_0_1_n_n.contr.Idx, f (dot_S1024x16_S16x128_S1024x128_1_0_0_1_n_n.lhsIdx j k) (dot_S1024x16_S16x128_S1024x128_1_0_0_1_n_n.rhsIdx j k)
      = ∑ k : Fin 16, f (ix2 (j 0) k) (ix2 k (j 1)) :=
  Cert.LibDotSum.plain dot_S1024x16_S16x128_S1024x128_1_0_0_1_n_n rfl rfl
    (fun j k => by
      unfold DotDims.lhsIdx
      rw [dif_neg (show ¬(0 : Fin S1024x16.rank) ∈ dot_S1024x16_S16x128_S1024x128_1_0_0_1_n_n.lhsBatch by decide),
        dif_pos (show (0 : Fin S1024x16.rank) ∈ dot_S1024x16_S16x128_S1024x128_1_0_0_1_n_n.lhsNonContracting by decide)]
      rfl)
    (fun j k => dot_S1024x16_S16x128_S1024x128_1_0_0_1_n_n.lhsIdx_val_of_single rfl j k)
    (fun j k => dot_S1024x16_S16x128_S1024x128_1_0_0_1_n_n.rhsIdx_val_of_single rfl j k)
    (fun j k => by
      unfold DotDims.rhsIdx
      rw [dif_neg (show ¬(1 : Fin S16x128.rank) ∈ dot_S1024x16_S16x128_S1024x128_1_0_0_1_n_n.rhsBatch by decide),
        dif_pos (show (1 : Fin S16x128.rank) ∈ dot_S1024x16_S16x128_S1024x128_1_0_0_1_n_n.rhsNonContracting by decide)]
      rfl)
    f j

/-- Rows × 128 by 128 × 2048: the contraction's sum is the sum over the 128 shared coordinates. -/
theorem sumD {α : Type} [AddCommMonoid α] (f : S1024x128.Idx → S128x2048.Idx → α) (j : S1024x2048.Idx) :
    ∑ k : dot_S1024x128_S128x2048_S1024x2048_1_0_0_1_n_n.contr.Idx, f (dot_S1024x128_S128x2048_S1024x2048_1_0_0_1_n_n.lhsIdx j k) (dot_S1024x128_S128x2048_S1024x2048_1_0_0_1_n_n.rhsIdx j k)
      = ∑ k : Fin 128, f (ix2 (j 0) k) (ix2 k (j 1)) :=
  Cert.LibDotSum.plain dot_S1024x128_S128x2048_S1024x2048_1_0_0_1_n_n rfl rfl
    (fun j k => by
      unfold DotDims.lhsIdx
      rw [dif_neg (show ¬(0 : Fin S1024x128.rank) ∈ dot_S1024x128_S128x2048_S1024x2048_1_0_0_1_n_n.lhsBatch by decide),
        dif_pos (show (0 : Fin S1024x128.rank) ∈ dot_S1024x128_S128x2048_S1024x2048_1_0_0_1_n_n.lhsNonContracting by decide)]
      rfl)
    (fun j k => dot_S1024x128_S128x2048_S1024x2048_1_0_0_1_n_n.lhsIdx_val_of_single rfl j k)
    (fun j k => dot_S1024x128_S128x2048_S1024x2048_1_0_0_1_n_n.rhsIdx_val_of_single rfl j k)
    (fun j k => by
      unfold DotDims.rhsIdx
      rw [dif_neg (show ¬(1 : Fin S128x2048.rank) ∈ dot_S1024x128_S128x2048_S1024x2048_1_0_0_1_n_n.rhsBatch by decide),
        dif_pos (show (1 : Fin S128x2048.rank) ∈ dot_S1024x128_S128x2048_S1024x2048_1_0_0_1_n_n.rhsNonContracting by decide)]
      rfl)
    f j

/-- Rows × 128 by 128 × 16: the contraction's sum is the sum over the 128 shared coordinates. -/
theorem sumE {α : Type} [AddCommMonoid α] (f : S1024x128.Idx → S128x16.Idx → α) (j : S1024x16.Idx) :
    ∑ k : dot_S1024x128_S128x16_S1024x16_1_0_0_1_n_n.contr.Idx, f (dot_S1024x128_S128x16_S1024x16_1_0_0_1_n_n.lhsIdx j k) (dot_S1024x128_S128x16_S1024x16_1_0_0_1_n_n.rhsIdx j k)
      = ∑ k : Fin 128, f (ix2 (j 0) k) (ix2 k (j 1)) :=
  Cert.LibDotSum.plain dot_S1024x128_S128x16_S1024x16_1_0_0_1_n_n rfl rfl
    (fun j k => by
      unfold DotDims.lhsIdx
      rw [dif_neg (show ¬(0 : Fin S1024x128.rank) ∈ dot_S1024x128_S128x16_S1024x16_1_0_0_1_n_n.lhsBatch by decide),
        dif_pos (show (0 : Fin S1024x128.rank) ∈ dot_S1024x128_S128x16_S1024x16_1_0_0_1_n_n.lhsNonContracting by decide)]
      rfl)
    (fun j k => dot_S1024x128_S128x16_S1024x16_1_0_0_1_n_n.lhsIdx_val_of_single rfl j k)
    (fun j k => dot_S1024x128_S128x16_S1024x16_1_0_0_1_n_n.rhsIdx_val_of_single rfl j k)
    (fun j k => by
      unfold DotDims.rhsIdx
      rw [dif_neg (show ¬(1 : Fin S128x16.rank) ∈ dot_S1024x128_S128x16_S1024x16_1_0_0_1_n_n.rhsBatch by decide),
        dif_pos (show (1 : Fin S128x16.rank) ∈ dot_S1024x128_S128x16_S1024x16_1_0_0_1_n_n.rhsNonContracting by decide)]
      rfl)
    f j

/-- Rows × 16 by 16 × 2048: the contraction's sum is the sum over the 16 shared coordinates. -/
theorem sumG {α : Type} [AddCommMonoid α] (f : S1024x16.Idx → S16x2048.Idx → α) (j : S1024x2048.Idx) :
    ∑ k : dot_S1024x16_S16x2048_S1024x2048_1_0_0_1_n_n.contr.Idx, f (dot_S1024x16_S16x2048_S1024x2048_1_0_0_1_n_n.lhsIdx j k) (dot_S1024x16_S16x2048_S1024x2048_1_0_0_1_n_n.rhsIdx j k)
      = ∑ k : Fin 16, f (ix2 (j 0) k) (ix2 k (j 1)) :=
  Cert.LibDotSum.plain dot_S1024x16_S16x2048_S1024x2048_1_0_0_1_n_n rfl rfl
    (fun j k => by
      unfold DotDims.lhsIdx
      rw [dif_neg (show ¬(0 : Fin S1024x16.rank) ∈ dot_S1024x16_S16x2048_S1024x2048_1_0_0_1_n_n.lhsBatch by decide),
        dif_pos (show (0 : Fin S1024x16.rank) ∈ dot_S1024x16_S16x2048_S1024x2048_1_0_0_1_n_n.lhsNonContracting by decide)]
      rfl)
    (fun j k => dot_S1024x16_S16x2048_S1024x2048_1_0_0_1_n_n.lhsIdx_val_of_single rfl j k)
    (fun j k => dot_S1024x16_S16x2048_S1024x2048_1_0_0_1_n_n.rhsIdx_val_of_single rfl j k)
    (fun j k => by
      unfold DotDims.rhsIdx
      rw [dif_neg (show ¬(1 : Fin S16x2048.rank) ∈ dot_S1024x16_S16x2048_S1024x2048_1_0_0_1_n_n.rhsBatch by decide),
        dif_pos (show (1 : Fin S16x2048.rank) ∈ dot_S1024x16_S16x2048_S1024x2048_1_0_0_1_n_n.rhsNonContracting by decide)]
      rfl)
    f j

/-! ## A product into the zero splat, read at an index -/

/-- The product of a 1024 × 2048 and a 2048 × 128 block into the zero splat, at row t and column n. -/
theorem mmA {φ₁ φ₂ : FTy} (l : FVec Ideal S1024x2048 φ₁) (r : FVec Ideal S2048x128 φ₂) (t : Fin 1024) (n : Fin 128) :
    matmul dot_S1024x2048_S2048x128_S1024x128_1_0_0_1_n_n none l r (constant S1024x128 .f32 0x00000000#32) (ix2 t n)
      = ∑ k : Fin 2048, l (ix2 t k) * r (ix2 k n) :=
  (Ideal.matmul_constant_zero_apply dot_S1024x2048_S2048x128_S1024x128_1_0_0_1_n_n none l r (ix2 t n)).trans
    (sumA (fun a b => l a * r b) (ix2 t n))

/-- The product of a 1024 × 2048 and a 2048 × 16 block into the zero splat, at row t and column n. -/
theorem mmB {φ₁ φ₂ : FTy} (l : FVec Ideal S1024x2048 φ₁) (r : FVec Ideal S2048x16 φ₂) (t : Fin 1024) (n : Fin 16) :
    matmul dot_S1024x2048_S2048x16_S1024x16_1_0_0_1_n_n none l r (constant S1024x16 .f32 0x00000000#32) (ix2 t n)
      = ∑ k : Fin 2048, l (ix2 t k) * r (ix2 k n) :=
  (Ideal.matmul_constant_zero_apply dot_S1024x2048_S2048x16_S1024x16_1_0_0_1_n_n none l r (ix2 t n)).trans
    (sumB (fun a b => l a * r b) (ix2 t n))

/-- The product of a 1024 × 16 and a 16 × 128 block into the zero splat, at row t and column n. -/
theorem mmC {φ₁ φ₂ : FTy} (l : FVec Ideal S1024x16 φ₁) (r : FVec Ideal S16x128 φ₂) (t : Fin 1024) (n : Fin 128) :
    matmul dot_S1024x16_S16x128_S1024x128_1_0_0_1_n_n none l r (constant S1024x128 .f32 0x00000000#32) (ix2 t n)
      = ∑ k : Fin 16, l (ix2 t k) * r (ix2 k n) :=
  (Ideal.matmul_constant_zero_apply dot_S1024x16_S16x128_S1024x128_1_0_0_1_n_n none l r (ix2 t n)).trans
    (sumC (fun a b => l a * r b) (ix2 t n))

/-- The product of a 1024 × 128 and a 128 × 2048 block into the zero splat, at row t and column n. -/
theorem mmD {φ₁ φ₂ : FTy} (l : FVec Ideal S1024x128 φ₁) (r : FVec Ideal S128x2048 φ₂) (t : Fin 1024) (n : Fin 2048) :
    matmul dot_S1024x128_S128x2048_S1024x2048_1_0_0_1_n_n none l r (constant S1024x2048 .f32 0x00000000#32) (ix2 t n)
      = ∑ k : Fin 128, l (ix2 t k) * r (ix2 k n) :=
  (Ideal.matmul_constant_zero_apply dot_S1024x128_S128x2048_S1024x2048_1_0_0_1_n_n none l r (ix2 t n)).trans
    (sumD (fun a b => l a * r b) (ix2 t n))

/-- The product of a 1024 × 128 and a 128 × 16 block into the zero splat, at row t and column n. -/
theorem mmE {φ₁ φ₂ : FTy} (l : FVec Ideal S1024x128 φ₁) (r : FVec Ideal S128x16 φ₂) (t : Fin 1024) (n : Fin 16) :
    matmul dot_S1024x128_S128x16_S1024x16_1_0_0_1_n_n none l r (constant S1024x16 .f32 0x00000000#32) (ix2 t n)
      = ∑ k : Fin 128, l (ix2 t k) * r (ix2 k n) :=
  (Ideal.matmul_constant_zero_apply dot_S1024x128_S128x16_S1024x16_1_0_0_1_n_n none l r (ix2 t n)).trans
    (sumE (fun a b => l a * r b) (ix2 t n))

/-- The product of a 1024 × 16 and a 16 × 2048 block into the zero splat, at row t and column n. -/
theorem mmG {φ₁ φ₂ : FTy} (l : FVec Ideal S1024x16 φ₁) (r : FVec Ideal S16x2048 φ₂) (t : Fin 1024) (n : Fin 2048) :
    matmul dot_S1024x16_S16x2048_S1024x2048_1_0_0_1_n_n none l r (constant S1024x2048 .f32 0x00000000#32) (ix2 t n)
      = ∑ k : Fin 16, l (ix2 t k) * r (ix2 k n) :=
  (Ideal.matmul_constant_zero_apply dot_S1024x16_S16x2048_S1024x2048_1_0_0_1_n_n none l r (ix2 t n)).trans
    (sumG (fun a b => l a * r b) (ix2 t n))

/-! ## The blocks without their leading unit axis, and the zero splats -/

section Casts
variable (x0 : Vec Ideal S1x1024x2048 .f32)

theorem pay3_apply (t : Fin 1024) (k : Fin 2048) : k0_pay3 x0 (ix2 t k) = x0 (ix3 0 t k) :=
  shapeCast_1ab_ab_apply x0 shapeCasts_S1x1024x2048_S1024x2048 t k

theorem pay4_apply (t : Fin 1024) (k : Fin 2048) : k0_pay4 x0 (ix2 t k) = x0 (ix3 0 t k) :=
  pay3_apply x0 t k

end Casts

theorem pay1_apply (t : Fin 1024) (d : Fin 2048) : k0_pay1 (F := Ideal) (ix2 t d) = 0 := by
  unfold k0_pay1
  rw [shapeCast_self]
  exact Ideal.ofBits_zero_f32

theorem pay2_apply (t : Fin 1024) (r : Fin 16) : k0_pay2 (F := Ideal) (ix2 t r) = 0 := by
  unfold k0_pay2
  rw [shapeCast_self]
  exact Ideal.ofBits_zero_f32

/-! ## A projection with its rank-16 correction, read at an index -/

/-- The projection only depends on its four arrays entry by entry. -/
theorem lin_congr {K N : ℕ} {x x' : Fin 1024 → Fin K → EReal} {w w' : Fin K → Fin N → EReal}
    {a a' : Fin K → Fin 16 → EReal} {b b' : Fin 16 → Fin N → EReal}
    (hx : ∀ t k, x t k = x' t k) (hw : ∀ k n, w k n = w' k n) (ha : ∀ k r, a k r = a' k r) (hb : ∀ r n, b r n = b' r n)
    (t : Fin 1024) (n : Fin N) : Cert.Moe.lin x w a b t n = Cert.Moe.lin x' w' a' b' t n := by
  have e1 : x = x' := funext fun t => funext fun k => hx t k
  have e2 : w = w' := funext fun k => funext fun n => hw k n
  have e3 : a = a' := funext fun k => funext fun r => ha k r
  have e4 : b = b' := funext fun r => funext fun n => hb r n
  rw [e1, e2, e3, e4]

/-- The body's projection to a block of 128 columns — the product with the weight block plus twice the product, through
    the 16 rank coordinates, with the two correction factors — is the projection of the specification on the blocks'
    entries. The rows enter twice, once narrowed and once not; over the extended reals the two are equal. -/
theorem proj_apply (a4 : FVec Ideal S1024x2048 .f32) (a5 : FVec Ideal S1024x2048 .bf16) (h45 : ∀ i, a5 i = a4 i)
    (w : FVec Ideal S2048x128 .bf16) (a : FVec Ideal S2048x16 .f32) (b : FVec Ideal S16x128 .f32)
    (t : Fin 1024) (n : Fin 128) :
    addf (matmul dot_S1024x2048_S2048x128_S1024x128_1_0_0_1_n_n none a5 w (constant S1024x128 .f32 0x00000000#32))
        (mulf (broadcast S1024x128 (Scalar.ofBits (F := Ideal) .f32 0x40000000#32))
          (matmul dot_S1024x16_S16x128_S1024x128_1_0_0_1_n_n none
            (matmul dot_S1024x2048_S2048x16_S1024x16_1_0_0_1_n_n none a4 a (constant S1024x16 .f32 0x00000000#32)) b
            (constant S1024x128 .f32 0x00000000#32))) (ix2 t n)
      = Cert.Moe.lin (fun t k => a4 (ix2 t k)) (fun k n => w (ix2 k n)) (fun k r => a (ix2 k r)) (fun r n => b (ix2 r n)) t n := by
  unfold Cert.Moe.lin
  refine (addf_apply _ _ _).trans (congrArg₂ (· + ·) ?_ ?_)
  · exact (mmA a5 w t n).trans (Finset.sum_congr rfl fun k _ => congrArg (· * w (ix2 k n)) (h45 _))
  · refine (mulf_apply _ _ _).trans (congrArg (Cert.Moe.two * ·) ?_)
    exact (mmC _ b t n).trans (Finset.sum_congr rfl fun r _ => congrArg (· * b (ix2 r n)) (mmB a4 a t r))

/-! ## The gate projection and its exponential -/

section Gate
variable (x0 : Vec Ideal S1x1024x2048 .f32) (x1 : Vec Ideal S1x2048x128 .f32) (x3 : Vec Ideal S1x2048x16 .f32)
  (x4 : Vec Ideal S1x16x128 .f32)

/-- The body's value %25 is the gate projection. -/
theorem pay8_apply (t : Fin 1024) (n : Fin 128) :
    k0_pay8 x0 x1 x3 x4 (ix2 t n)
      = Cert.Moe.lin (fun t k => x0 (ix3 0 t k)) (fun k n => x1 (ix3 0 k n)) (fun k r => x3 (ix3 0 k r))
          (fun r n => x4 (ix3 0 r n)) t n := by
  unfold k0_pay8
  refine (proj_apply (k0_pay3 x0) (k0_pay4 x0) (fun _ => rfl) _ _ _ t n).trans ?_
  exact lin_congr (fun t k => pay3_apply x0 t k)
    (fun k n => shapeCast_1ab_ab_apply x1 shapeCasts_S1x2048x128_S2048x128 k n)
    (fun k r => shapeCast_1ab_ab_apply x3 shapeCasts_S1x2048x16_S2048x16 k r)
    (fun r n => shapeCast_1ab_ab_apply x4 shapeCasts_S1x16x128_S16x128 r n) t n

/-- The body's value %28 is the exponential of the negated gate projection (the body writes the negation 0 − v). -/
theorem pay9_apply (t : Fin 1024) (n : Fin 128) :
    k0_pay9 x0 x1 x3 x4 (ix2 t n) = Ideal.exp (-(k0_pay8 x0 x1 x3 x4 (ix2 t n))) := by
  unfold k0_pay9
  show Ideal.exp (Ideal.ofBits .f32 0x00000000#32 - k0_pay8 x0 x1 x3 x4 (ix2 t n)) = _
  rw [Ideal.ofBits_zero_f32, zero_sub]

end Gate

/-! ## The hidden block -/

/-- The body's value %40 from the values it is computed from: (v25 · (1 / (1 + v28))) · up, with up the second
    projection of the rows. -/
theorem pay10_apply (v4 : FVec Ideal S1024x2048 .f32) (v5 : FVec Ideal S1024x2048 .bf16) (h45 : ∀ i, v5 i = v4 i)
    (v11 : FVec Ideal S2048x128 .bf16) (v17 : FVec Ideal S2048x16 .f32) (v19 : FVec Ideal S16x128 .f32)
    (v25 v28 : FVec Ideal S1024x128 .f32) (t : Fin 1024) (n : Fin 128) :
    k0_pay10 v4 v5 v11 v17 v19 v25 v28 (ix2 t n)
      = (v25 (ix2 t n) * Ideal.div Cert.Moe.one (Cert.Moe.one + v28 (ix2 t n)))
          * Cert.Moe.lin (fun t k => v4 (ix2 t k)) (fun k n => v11 (ix2 k n)) (fun k r => v17 (ix2 k r))
              (fun r n => v19 (ix2 r n)) t n := by
  unfold k0_pay10
  refine (mulf_apply _ _ _).trans (congrArg₂ (· * ·) rfl ?_)
  exact proj_apply v4 v5 h45 v11 v17 v19 t n

variable (x0 : Vec Ideal S1x1024x2048 .f32) (x1 x2 : Vec Ideal S1x2048x128 .f32) (x3 : Vec Ideal S1x2048x16 .f32)
  (x4 : Vec Ideal S1x16x128 .f32) (x5 : Vec Ideal S1x2048x16 .f32) (x6 : Vec Ideal S1x16x128 .f32)
  (x7 : Vec Ideal S1x128x2048 .f32) (x8 : Vec Ideal S1x128x16 .f32) (x9 : Vec Ideal S1x16x2048 .f32)

/-- The hidden block: the body's value %40. -/
abbrev hblk : FVec Ideal S1024x128 .f32 :=
  k0_pay10 (k0_pay3 x0) (k0_pay4 x0) (k0_pay5 x2) (k0_pay6 x5) (k0_pay7 x6) (k0_pay8 x0 x1 x3 x4) (k0_pay9 x0 x1 x3 x4)

/-- The hidden block is silu(gate) · up of the blocks' entries. -/
theorem hblk_apply (t : Fin 1024) (j : Fin 128) :
    hblk x0 x1 x2 x3 x4 x5 x6 (ix2 t j)
      = Cert.Moe.hid (fun t k => x0 (ix3 0 t k)) (fun k n => x1 (ix3 0 k n)) (fun k n => x2 (ix3 0 k n))
          (fun k r => x3 (ix3 0 k r)) (fun k r => x5 (ix3 0 k r)) (fun r n => x4 (ix3 0 r n))
          (fun r n => x6 (ix3 0 r n)) t j := by
  unfold Cert.Moe.hid Cert.Moe.silu
  refine (pay10_apply (k0_pay3 x0) (k0_pay4 x0) (fun _ => rfl) _ _ _ _ _ t j).trans ?_
  rw [pay9_apply x0 x1 x3 x4 t j, pay8_apply x0 x1 x3 x4 t j]
  refine congrArg₂ (· * ·) rfl ?_
  exact lin_congr (fun t k => pay3_apply x0 t k)
    (fun k n => shapeCast_1ab_ab_apply x2 shapeCasts_S1x2048x128_S2048x128 k n)
    (fun k r => shapeCast_1ab_ab_apply x5 shapeCasts_S1x2048x16_S2048x16 k r)
    (fun r n => shapeCast_1ab_ab_apply x6 shapeCasts_S1x16x128_S16x128 r n) t j

/-! ## The two running sums and the last value -/

/-- The first running sum's new value, from any hidden block's ingredients. -/
theorem pay11_gen (v4 : FVec Ideal S1024x2048 .f32) (v5 : FVec Ideal S1024x2048 .bf16)
    (v11 : FVec Ideal S2048x128 .bf16) (v17 : FVec Ideal S2048x16 .f32) (v19 : FVec Ideal S16x128 .f32)
    (v25 v28 : FVec Ideal S1024x128 .f32) (v42 : Vec Ideal S1x128x2048 .f32) (v47 : Vec Ideal S1024x2048 .f32)
    (t : Fin 1024) (d : Fin 2048) :
    k0_pay11 v4 v5 v11 v17 v19 v25 v28 v42 v47 (ix2 t d)
      = v47 (ix2 t d) + ∑ j : Fin 128, k0_pay10 v4 v5 v11 v17 v19 v25 v28 (ix2 t j) * v42 (ix3 0 j d) := by
  unfold k0_pay11
  rw [shapeCast_self]
  refine (addf_apply _ _ _).trans (congrArg (v47 (ix2 t d) + ·) ?_)
  refine (mmD _ _ t d).trans (Finset.sum_congr rfl fun j _ => congrArg₂ (· * ·) rfl ?_)
  exact shapeCast_1ab_ab_apply v42 shapeCasts_S1x128x2048_S128x2048 j d

/-- The second running sum's new value, from any hidden block's ingredients. -/
theorem pay12_gen (v4 : FVec Ideal S1024x2048 .f32) (v5 : FVec Ideal S1024x2048 .bf16)
    (v11 : FVec Ideal S2048x128 .bf16) (v17 : FVec Ideal S2048x16 .f32) (v19 : FVec Ideal S16x128 .f32)
    (v25 v28 : FVec Ideal S1024x128 .f32) (v45 : Vec Ideal S1x128x16 .f32) (v53 : Vec Ideal S1024x16 .f32)
    (t : Fin 1024) (r : Fin 16) :
    k0_pay12 v4 v5 v11 v17 v19 v25 v28 v45 v53 (ix2 t r)
      = v53 (ix2 t r) + ∑ j : Fin 128, k0_pay10 v4 v5 v11 v17 v19 v25 v28 (ix2 t j) * v45 (ix3 0 j r) := by
  unfold k0_pay12
  rw [shapeCast_self]
  refine (addf_apply _ _ _).trans (congrArg (v53 (ix2 t r) + ·) ?_)
  refine (mmE _ _ t r).trans (Finset.sum_congr rfl fun j _ => congrArg₂ (· * ·) rfl ?_)
  exact shapeCast_1ab_ab_apply v45 shapeCasts_S1x128x16_S128x16 j r

/-- The first running sum grows by the hidden block's sum against the block of the last weight. -/
theorem pay11_apply (v47 : Vec Ideal S1024x2048 .f32) (t : Fin 1024) (d : Fin 2048) :
    k0_pay11 (k0_pay3 x0) (k0_pay4 x0) (k0_pay5 x2) (k0_pay6 x5) (k0_pay7 x6) (k0_pay8 x0 x1 x3 x4)
        (k0_pay9 x0 x1 x3 x4) x7 v47 (ix2 t d)
      = v47 (ix2 t d) + ∑ j : Fin 128, hblk x0 x1 x2 x3 x4 x5 x6 (ix2 t j) * x7 (ix3 0 j d) :=
  pay11_gen _ _ _ _ _ _ _ x7 v47 t d

/-- The second running sum grows by the hidden block's sum against the block of the last correction's first factor. -/
theorem pay12_apply (v53 : Vec Ideal S1024x16 .f32) (t : Fin 1024) (r : Fin 16) :
    k0_pay12 (k0_pay3 x0) (k0_pay4 x0) (k0_pay5 x2) (k0_pay6 x5) (k0_pay7 x6) (k0_pay8 x0 x1 x3 x4)
        (k0_pay9 x0 x1 x3 x4) x8 v53 (ix2 t r)
      = v53 (ix2 t r) + ∑ j : Fin 128, hblk x0 x1 x2 x3 x4 x5 x6 (ix2 t j) * x8 (ix3 0 j r) :=
  pay12_gen _ _ _ _ _ _ _ x8 v53 t r

/-- The last value: the first running sum plus twice the second's product with the last correction's second factor. -/
theorem pay13_apply (v64 : Vec Ideal S1024x16 .f32) (v66 : Vec Ideal S1024x2048 .f32) (t : Fin 1024) (d : Fin 2048) :
    k0_pay13 x9 v64 v66 (ix3 0 t d)
      = v66 (ix2 t d) + Cert.Moe.two * ∑ r : Fin 16, v64 (ix2 t r) * x9 (ix3 0 r d) := by
  unfold k0_pay13
  refine (shapeCast_ab_1ab_apply _ shapeCasts_S1024x2048_S1x1024x2048 0 t d).trans ?_
  refine (addf_apply _ _ _).trans (congrArg (v66 (ix2 t d) + ·) ?_)
  refine (mulf_apply _ _ _).trans (congrArg (Cert.Moe.two * ·) ?_)
  refine (mmG (φ₁ := .f32) v64 _ t d).trans (Finset.sum_congr rfl fun r _ => congrArg (v64 (ix2 t r) * ·) ?_)
  exact shapeCast_1ab_ab_apply x9 shapeCasts_S1x16x2048_S16x2048 r d

end Cert.KernelIdeal.Point

end
-- ==== Proof.KernelAcc.lean ====
/-
  The two running totals after every grid point, and the result block an expert's last point stores.

  The 256 points run through the experts one after the other, 32 hidden blocks each. After the point of expert e and hidden
  block h the first running total holds, at row t and column d, the sum over the blocks 0..h of the block's base products
  (hidden activation of row t at the block's 128 columns times the down weights at those rows), and the second holds the
  same sums against the correction's first factor: an expert's first point starts both from zero, every later point adds its
  block. At the expert's last point the stored result is the first total plus twice the second total's product with the
  correction's last factor, which after all 32 blocks is the layer's result for that expert.
-/
import proofs.«105736_j42949673290_2_alg».proof.Proof.Gen.KernelIdeal.Frame
import proofs.«105736_j42949673290_2_alg».proof.Proof.Spec
import proofs.«105736_j42949673290_2_alg».proof.Proof.KernelBlocks
import proofs.«105736_j42949673290_2_alg».proof.Proof.KernelPieces
import proofs.«105736_j42949673290_2_alg».proof.Proof.KernelPoint

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Blocks Cert.Moe

variable (m : (ℓ : Loc nD τ sig) → Buf (Elt Ideal) ℓ)

/-- Expert e's hidden activation, from the arrays as the region finds them. -/
def H (c : Dev nD) (e : Fin 8) : Fin 1024 → Fin 4096 → EReal :=
  hidAt (V m c main_v0) (V m c main_arg2) (V m c main_arg3) (V m c main_arg5) (V m c main_arg7) (V m c main_arg6) (V m c main_arg8) e

/-- Expert e's down weights and the correction's two factors. -/
def Wd (c : Dev nD) (e : Fin 8) : Fin 4096 → Fin 2048 → EReal := fun k d => V m c main_arg4 (ix3 e k d)
def Ad (c : Dev nD) (e : Fin 8) : Fin 4096 → Fin 16 → EReal := fun k r => V m c main_arg9 (ix3 e k r)
def Bd (c : Dev nD) (e : Fin 8) : Fin 16 → Fin 2048 → EReal := fun r d => V m c main_arg10 (ix3 e r d)

/-- The hidden block a point computes is its expert's hidden activation at the point's 128 columns. -/
theorem hblk_at (c : Dev nD) (t' : Fin cfg0.N) (t : Fin 1024) (j : Fin 128) :
    Point.hblk (x0 := iblk m c 0 t') (x1 := iblk m c 1 t') (x2 := iblk m c 2 t') (x3 := iblk m c 3 t') (x4 := iblk m c 4 t') (x5 := iblk m c 5 t') (x6 := iblk m c 6 t') (ix2 t j) = H m c (ept t') t (col (t'.val % 32) j) := by
  refine (Point.hblk_apply (x0 := iblk m c 0 t') (x1 := iblk m c 1 t') (x2 := iblk m c 2 t') (x3 := iblk m c 3 t') (x4 := iblk m c 4 t') (x5 := iblk m c 5 t') (x6 := iblk m c 6 t') t j).trans ?_
  have e0 : (fun (t : Fin 1024) (k : Fin 2048) => iblk m c 0 t' (ix3 (0 : Fin 1) t k)) = fun t k => V m c main_v0 (ix3 (ept t') t k) :=
    funext fun t => funext fun k => blk0 m c t' 0 t k
  have e1 : (fun (k : Fin 2048) (n : Fin 128) => iblk m c 1 t' (ix3 (0 : Fin 1) k n)) = fun k n => V m c main_arg2 (ix3 (ept t') k (col (t'.val % 32) n)) :=
    funext fun k => funext fun n => blk1 m c t' 0 k n
  have e2 : (fun (k : Fin 2048) (n : Fin 128) => iblk m c 2 t' (ix3 (0 : Fin 1) k n)) = fun k n => V m c main_arg3 (ix3 (ept t') k (col (t'.val % 32) n)) :=
    funext fun k => funext fun n => blk2 m c t' 0 k n
  have e3 : (fun (k : Fin 2048) (r : Fin 16) => iblk m c 3 t' (ix3 (0 : Fin 1) k r)) = fun k r => V m c main_arg5 (ix3 (ept t') k r) :=
    funext fun k => funext fun r => blk3 m c t' 0 k r
  have e4 : (fun (r : Fin 16) (n : Fin 128) => iblk m c 4 t' (ix3 (0 : Fin 1) r n)) = fun r n => V m c main_arg6 (ix3 (ept t') r (col (t'.val % 32) n)) :=
    funext fun r => funext fun n => blk4 m c t' 0 r n
  have e5 : (fun (k : Fin 2048) (r : Fin 16) => iblk m c 5 t' (ix3 (0 : Fin 1) k r)) = fun k r => V m c main_arg7 (ix3 (ept t') k r) :=
    funext fun k => funext fun r => blk5 m c t' 0 k r
  have e6 : (fun (r : Fin 16) (n : Fin 128) => iblk m c 6 t' (ix3 (0 : Fin 1) r n)) = fun r n => V m c main_arg8 (ix3 (ept t') r (col (t'.val % 32) n)) :=
    funext fun r => funext fun n => blk6 m c t' 0 r n
  rw [e0, e1, e2, e3, e5, e4, e6]
  rfl

/-- A point's addition to the first running total: its block's base products. -/
theorem add0 (c : Dev nD) (t' : Fin cfg0.N) (v : Vec Ideal S1024x2048 .f32) (t : Fin 1024) (d : Fin 2048) :
    (k0_pay11 (k0_pay3 (iblk m c 0 t')) (k0_pay4 (iblk m c 0 t')) (k0_pay5 (iblk m c 2 t')) (k0_pay6 (iblk m c 5 t')) (k0_pay7 (iblk m c 6 t')) (k0_pay8 (iblk m c 0 t') (iblk m c 1 t') (iblk m c 3 t') (iblk m c 4 t')) (k0_pay9 (iblk m c 0 t') (iblk m c 1 t') (iblk m c 3 t') (iblk m c 4 t')) (iblk m c 7 t') v) (ix2 t d)
      = v (ix2 t d) + ∑ j : Fin 128, H m c (ept t') t (col (t'.val % 32) j) * Wd m c (ept t') (col (t'.val % 32) j) d := by
  refine (Point.pay11_apply (x0 := iblk m c 0 t') (x1 := iblk m c 1 t') (x2 := iblk m c 2 t') (x3 := iblk m c 3 t') (x4 := iblk m c 4 t') (x5 := iblk m c 5 t') (x6 := iblk m c 6 t') (x7 := iblk m c 7 t') v t d).trans ?_
  refine congrArg (v (ix2 t d) + ·) (Finset.sum_congr rfl fun j _ => ?_)
  rw [hblk_at m c t' t j, blk7 m c t' 0 j d]
  rfl

/-- A point's addition to the second running total. -/
theorem add1 (c : Dev nD) (t' : Fin cfg0.N) (v : Vec Ideal S1024x16 .f32) (t : Fin 1024) (r : Fin 16) :
    (k0_pay12 (k0_pay3 (iblk m c 0 t')) (k0_pay4 (iblk m c 0 t')) (k0_pay5 (iblk m c 2 t')) (k0_pay6 (iblk m c 5 t')) (k0_pay7 (iblk m c 6 t')) (k0_pay8 (iblk m c 0 t') (iblk m c 1 t') (iblk m c 3 t') (iblk m c 4 t')) (k0_pay9 (iblk m c 0 t') (iblk m c 1 t') (iblk m c 3 t') (iblk m c 4 t')) (iblk m c 8 t') v) (ix2 t r)
      = v (ix2 t r) + ∑ j : Fin 128, H m c (ept t') t (col (t'.val % 32) j) * Ad m c (ept t') (col (t'.val % 32) j) r := by
  refine (Point.pay12_apply (x0 := iblk m c 0 t') (x1 := iblk m c 1 t') (x2 := iblk m c 2 t') (x3 := iblk m c 3 t') (x4 := iblk m c 4 t') (x5 := iblk m c 5 t') (x6 := iblk m c 6 t') (x8 := iblk m c 8 t') v t r).trans ?_
  refine congrArg (v (ix2 t r) + ·) (Finset.sum_congr rfl fun j _ => ?_)
  rw [hblk_at m c t' t j, blk8 m c t' 0 j r]
  rfl

/-- What an expert's first point leaves in the two running totals. -/
theorem first (c : Dev nD) (t' : Fin cfg0.N) (h0 : t'.val % 32 = 0) (h1 : ¬t'.val % 32 = 31) :
    (outsAt0 m c t'.val t'.isLt).2.1 = k0_pay11 (k0_pay3 (iblk m c 0 t')) (k0_pay4 (iblk m c 0 t')) (k0_pay5 (iblk m c 2 t')) (k0_pay6 (iblk m c 5 t')) (k0_pay7 (iblk m c 6 t')) (k0_pay8 (iblk m c 0 t') (iblk m c 1 t') (iblk m c 3 t') (iblk m c 4 t')) (k0_pay9 (iblk m c 0 t') (iblk m c 1 t') (iblk m c 3 t') (iblk m c 4 t')) (iblk m c 7 t') (k0_pay1 (F := Ideal))
    ∧ (outsAt0 m c t'.val t'.isLt).2.2 = k0_pay12 (k0_pay3 (iblk m c 0 t')) (k0_pay4 (iblk m c 0 t')) (k0_pay5 (iblk m c 2 t')) (k0_pay6 (iblk m c 5 t')) (k0_pay7 (iblk m c 6 t')) (k0_pay8 (iblk m c 0 t') (iblk m c 1 t') (iblk m c 3 t') (iblk m c 4 t')) (k0_pay9 (iblk m c 0 t') (iblk m c 1 t') (iblk m c 3 t') (iblk m c 4 t')) (iblk m c 8 t') (k0_pay2 (F := Ideal)) := by
  rw [outsAt0_A m c t' h0 h1]
  dsimp only
  exact ⟨Pieces.sA0 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') (ms0_8 t') (hs0_8 t') (ms0_9 t') (hs0_9 t') (ms0_10 t') (hs0_10 t') scM0_0 (Memref.isWhole_whole _) scM0_1 (Memref.isWhole_whole _) ((hcond0_0 t').mpr h0) (fun h => h1 ((hcond0_1 t').mp h)) (iblk m c 0 t') (iblk m c 1 t') (iblk m c 2 t') (iblk m c 3 t') (iblk m c 4 t') (iblk m c 5 t') (iblk m c 6 t') (iblk m c 7 t') (iblk m c 8 t') (iblk m c 9 t'),
    Pieces.sA1 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') (ms0_8 t') (hs0_8 t') (ms0_9 t') (hs0_9 t') (ms0_10 t') (hs0_10 t') scM0_0 (Memref.isWhole_whole _) scM0_1 (Memref.isWhole_whole _) ((hcond0_0 t').mpr h0) (fun h => h1 ((hcond0_1 t').mp h)) (iblk m c 0 t') (iblk m c 1 t') (iblk m c 2 t') (iblk m c 3 t') (iblk m c 4 t') (iblk m c 5 t') (iblk m c 6 t') (iblk m c 7 t') (iblk m c 8 t') (iblk m c 9 t')⟩

/-- What a later point leaves in them: its payloads over what the point before left. -/
theorem later (c : Dev nD) (t' : Fin cfg0.N) (h0 : ¬t'.val % 32 = 0) :
    (outsAt0 m c t'.val t'.isLt).2.1 = k0_pay11 (k0_pay3 (iblk m c 0 t')) (k0_pay4 (iblk m c 0 t')) (k0_pay5 (iblk m c 2 t')) (k0_pay6 (iblk m c 5 t')) (k0_pay7 (iblk m c 6 t')) (k0_pay8 (iblk m c 0 t') (iblk m c 1 t') (iblk m c 3 t') (iblk m c 4 t')) (k0_pay9 (iblk m c 0 t') (iblk m c 1 t') (iblk m c 3 t') (iblk m c 4 t')) (iblk m c 7 t') ((outsAt0 m c (t'.val - 1) (Nat.lt_of_le_of_lt (Nat.sub_le _ _) t'.isLt)).2.1)
    ∧ (outsAt0 m c t'.val t'.isLt).2.2 = k0_pay12 (k0_pay3 (iblk m c 0 t')) (k0_pay4 (iblk m c 0 t')) (k0_pay5 (iblk m c 2 t')) (k0_pay6 (iblk m c 5 t')) (k0_pay7 (iblk m c 6 t')) (k0_pay8 (iblk m c 0 t') (iblk m c 1 t') (iblk m c 3 t') (iblk m c 4 t')) (k0_pay9 (iblk m c 0 t') (iblk m c 1 t') (iblk m c 3 t') (iblk m c 4 t')) (iblk m c 8 t') ((outsAt0 m c (t'.val - 1) (Nat.lt_of_le_of_lt (Nat.sub_le _ _) t'.isLt)).2.2) := by
  by_cases h1 : t'.val % 32 = 31
  · rw [outsAt0_C m c t' h0 h1]
    dsimp only
    exact ⟨Pieces.sC0 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') (ms0_8 t') (hs0_8 t') (ms0_9 t') (hs0_9 t') (ms0_10 t') (hs0_10 t') scM0_0 (Memref.isWhole_whole _) scM0_1 (Memref.isWhole_whole _) (fun h => h0 ((hcond0_0 t').mp h)) ((hcond0_1 t').mpr h1) (iblk m c 0 t') (iblk m c 1 t') (iblk m c 2 t') (iblk m c 3 t') (iblk m c 4 t') (iblk m c 5 t') (iblk m c 6 t') (iblk m c 7 t') (iblk m c 8 t') (iblk m c 9 t') ((outsAt0 m c (t'.val - 1) (Nat.lt_of_le_of_lt (Nat.sub_le _ _) t'.isLt)).2.1) ((outsAt0 m c (t'.val - 1) (Nat.lt_of_le_of_lt (Nat.sub_le _ _) t'.isLt)).2.2),
      Pieces.sC1 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') (ms0_8 t') (hs0_8 t') (ms0_9 t') (hs0_9 t') (ms0_10 t') (hs0_10 t') scM0_0 (Memref.isWhole_whole _) scM0_1 (Memref.isWhole_whole _) (fun h => h0 ((hcond0_0 t').mp h)) ((hcond0_1 t').mpr h1) (iblk m c 0 t') (iblk m c 1 t') (iblk m c 2 t') (iblk m c 3 t') (iblk m c 4 t') (iblk m c 5 t') (iblk m c 6 t') (iblk m c 7 t') (iblk m c 8 t') (iblk m c 9 t') ((outsAt0 m c (t'.val - 1) (Nat.lt_of_le_of_lt (Nat.sub_le _ _) t'.isLt)).2.1) ((outsAt0 m c (t'.val - 1) (Nat.lt_of_le_of_lt (Nat.sub_le _ _) t'.isLt)).2.2)⟩
  · rw [outsAt0_B m c t' h0 h1]
    dsimp only
    exact ⟨Pieces.sB0 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') (ms0_8 t') (hs0_8 t') (ms0_9 t') (hs0_9 t') (ms0_10 t') (hs0_10 t') scM0_0 (Memref.isWhole_whole _) scM0_1 (Memref.isWhole_whole _) (fun h => h0 ((hcond0_0 t').mp h)) (fun h => h1 ((hcond0_1 t').mp h)) (iblk m c 0 t') (iblk m c 1 t') (iblk m c 2 t') (iblk m c 3 t') (iblk m c 4 t') (iblk m c 5 t') (iblk m c 6 t') (iblk m c 7 t') (iblk m c 8 t') (iblk m c 9 t') ((outsAt0 m c (t'.val - 1) (Nat.lt_of_le_of_lt (Nat.sub_le _ _) t'.isLt)).2.1) ((outsAt0 m c (t'.val - 1) (Nat.lt_of_le_of_lt (Nat.sub_le _ _) t'.isLt)).2.2),
      Pieces.sB1 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') (ms0_8 t') (hs0_8 t') (ms0_9 t') (hs0_9 t') (ms0_10 t') (hs0_10 t') scM0_0 (Memref.isWhole_whole _) scM0_1 (Memref.isWhole_whole _) (fun h => h0 ((hcond0_0 t').mp h)) (fun h => h1 ((hcond0_1 t').mp h)) (iblk m c 0 t') (iblk m c 1 t') (iblk m c 2 t') (iblk m c 3 t') (iblk m c 4 t') (iblk m c 5 t') (iblk m c 6 t') (iblk m c 7 t') (iblk m c 8 t') (iblk m c 9 t') ((outsAt0 m c (t'.val - 1) (Nat.lt_of_le_of_lt (Nat.sub_le _ _) t'.isLt)).2.1) ((outsAt0 m c (t'.val - 1) (Nat.lt_of_le_of_lt (Nat.sub_le _ _) t'.isLt)).2.2)⟩

/-- THE RUNNING TOTALS after the point n = 32·e + h: the sums over the blocks 0..h. -/
theorem totals (c : Dev nD) : ∀ (n : ℕ) (hn : n < cfg0.N) (e : Fin 8), e.val = n / 32 → ∀ t : Fin 1024,
    (∀ d : Fin 2048, (outsAt0 m c n hn).2.1 (ix2 t d) = accOut (H m c e) (Wd m c e) (n % 32 + 1) t d)
    ∧ (∀ r : Fin 16, (outsAt0 m c n hn).2.2 (ix2 t r) = accMid (H m c e) (Ad m c e) (n % 32 + 1) t r) := by
  intro n
  induction n with
  | zero =>
    intro hn e he t
    have he' : ept (⟨0, hn⟩ : Fin cfg0.N) = e := Fin.ext (by rw [ept_val]; exact he.symm)
    obtain ⟨f0, f1⟩ := first m c ⟨0, hn⟩ (Nat.zero_mod 32) (by show ¬(0 % 32 = 31); decide)
    refine ⟨fun d => ?_, fun r => ?_⟩
    · refine (congrFun f0 (ix2 t d)).trans ?_
      refine (add0 m c ⟨0, hn⟩ _ t d).trans ?_
      rw [Point.pay1_apply, he']
      show 0 + ∑ j : Fin 128, H m c e t (col 0 j) * Wd m c e (col 0 j) d = accOut (H m c e) (Wd m c e) (0 + 1) t d
      rw [accOut_succ, accOut_zero]
    · refine (congrFun f1 (ix2 t r)).trans ?_
      refine (add1 m c ⟨0, hn⟩ _ t r).trans ?_
      rw [Point.pay2_apply, he']
      show 0 + ∑ j : Fin 128, H m c e t (col 0 j) * Ad m c e (col 0 j) r = accMid (H m c e) (Ad m c e) (0 + 1) t r
      rw [accMid_succ, accMid_zero]
  | succ n ih =>
    intro hn e he t
    have hN : n + 1 < 256 := lt_of_lt_of_eq hn (show cfg0.N = 256 from N_0)
    have he' : ept (⟨n + 1, hn⟩ : Fin cfg0.N) = e := Fin.ext (by rw [ept_val]; exact he.symm)
    by_cases h0 : (n + 1) % 32 = 0
    · obtain ⟨f0, f1⟩ := first m c ⟨n + 1, hn⟩ h0 (by show ¬(n + 1) % 32 = 31; omega)
      refine ⟨fun d => ?_, fun r => ?_⟩
      · refine (congrFun f0 (ix2 t d)).trans ?_
        refine (add0 m c ⟨n + 1, hn⟩ _ t d).trans ?_
        rw [Point.pay1_apply, he']
        show 0 + ∑ j : Fin 128, H m c e t (col ((n + 1) % 32) j) * Wd m c e (col ((n + 1) % 32) j) d
          = accOut (H m c e) (Wd m c e) ((n + 1) % 32 + 1) t d
        rw [h0, accOut_succ, accOut_zero]
      · refine (congrFun f1 (ix2 t r)).trans ?_
        refine (add1 m c ⟨n + 1, hn⟩ _ t r).trans ?_
        rw [Point.pay2_apply, he']
        show 0 + ∑ j : Fin 128, H m c e t (col ((n + 1) % 32) j) * Ad m c e (col ((n + 1) % 32) j) r
          = accMid (H m c e) (Ad m c e) ((n + 1) % 32 + 1) t r
        rw [h0, accMid_succ, accMid_zero]
    · obtain ⟨f0, f1⟩ := later m c ⟨n + 1, hn⟩ h0
      obtain ⟨i0, i1⟩ := ih (Nat.lt_of_succ_lt hn) e (by omega) t
      have hs : (n + 1) % 32 = n % 32 + 1 := by omega
      refine ⟨fun d => ?_, fun r => ?_⟩
      · refine (congrFun f0 (ix2 t d)).trans ?_
        refine (add0 m c ⟨n + 1, hn⟩ _ t d).trans ?_
        rw [he']
        show (outsAt0 m c n (Nat.lt_of_succ_lt hn)).2.1 (ix2 t d) + ∑ j : Fin 128, H m c e t (col ((n + 1) % 32) j) * Wd m c e (col ((n + 1) % 32) j) d
          = accOut (H m c e) (Wd m c e) ((n + 1) % 32 + 1) t d
        rw [i0 d, hs, accOut_succ (H m c e) (Wd m c e) (n % 32 + 1) t d]
      · refine (congrFun f1 (ix2 t r)).trans ?_
        refine (add1 m c ⟨n + 1, hn⟩ _ t r).trans ?_
        rw [he']
        show (outsAt0 m c n (Nat.lt_of_succ_lt hn)).2.2 (ix2 t r) + ∑ j : Fin 128, H m c e t (col ((n + 1) % 32) j) * Ad m c e (col ((n + 1) % 32) j) r
          = accMid (H m c e) (Ad m c e) ((n + 1) % 32 + 1) t r
        rw [i1 r, hs, accMid_succ (H m c e) (Ad m c e) (n % 32 + 1) t r]

/-- THE RESULT BLOCK an expert's last point stores is the layer's result for that expert. -/
theorem result_block (c : Dev nD) (t' : Fin cfg0.N) (h1 : t'.val % 32 = 31) (a : Fin 1) (t : Fin 1024) (d : Fin 2048) :
    (outsAt0 m c t'.val t'.isLt).1 (ix3 a t d)
      = out (V m c main_v0) (V m c main_arg2) (V m c main_arg3) (V m c main_arg4) (V m c main_arg5) (V m c main_arg7)
          (V m c main_arg6) (V m c main_arg8) (V m c main_arg9) (V m c main_arg10) (ept t') t d := by
  have h0 : ¬t'.val % 32 = 0 := by omega
  obtain rfl : a = 0 := Subsingleton.elim _ _
  obtain ⟨f0, f1⟩ := later m c t' h0
  obtain ⟨i0, i1⟩ := totals m c t'.val t'.isLt (ept t') (ept_val t') t
  have hout : (outsAt0 m c t'.val t'.isLt).1 = k0_pay13 (iblk m c 9 t') ((outsAt0 m c t'.val t'.isLt).2.2) ((outsAt0 m c t'.val t'.isLt).2.1) := by
    rw [f0, f1, outsAt0_C m c t' h0 h1]
    dsimp only
    exact Pieces.oC (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') (ms0_8 t') (hs0_8 t') (ms0_9 t') (hs0_9 t') (ms0_10 t') (hs0_10 t') scM0_0 (Memref.isWhole_whole _) scM0_1 (Memref.isWhole_whole _) (fun h => h0 ((hcond0_0 t').mp h)) ((hcond0_1 t').mpr h1) (iblk m c 0 t') (iblk m c 1 t') (iblk m c 2 t') (iblk m c 3 t') (iblk m c 4 t') (iblk m c 5 t') (iblk m c 6 t') (iblk m c 7 t') (iblk m c 8 t') (iblk m c 9 t') ((outsAt0 m c (t'.val - 1) (Nat.lt_of_le_of_lt (Nat.sub_le _ _) t'.isLt)).2.1) ((outsAt0 m c (t'.val - 1) (Nat.lt_of_le_of_lt (Nat.sub_le _ _) t'.isLt)).2.2)
  rw [hout]
  refine (Point.pay13_apply (x9 := iblk m c 9 t') _ _ t d).trans ?_
  rw [i0 d, show t'.val % 32 + 1 = 32 from by omega]
  have hs : ∑ r : Fin 16, (outsAt0 m c t'.val t'.isLt).2.2 (ix2 t r) * iblk m c 9 t' (ix3 (0 : Fin 1) r d)
      = ∑ r : Fin 16, accMid (H m c (ept t')) (Ad m c (ept t')) 32 t r * Bd m c (ept t') r d :=
    Finset.sum_congr rfl fun r _ => by
      rw [i1 r, show t'.val % 32 + 1 = 32 from by omega, blk9 m c t' 0 r d]
      rfl
  rw [hs, blocked_eq_lin]
  rfl

end Cert.KernelIdeal.Acc

end
-- ==== Proof.KernelHost.lean ====
/-
  The host side of the kernel's value: what the program around the grid does to the arrays.

  The program reshapes the token array (8192 x 2048) into one slab of 1024 rows per expert (8 x 1024 x 2048), runs the
  grid of 256 points over it, and reshapes the result array (8 x 1024 x 2048) back to 8192 x 2048. The result array is
  written back one expert's slab at a time, at the last of the 32 points that work on that expert (point 32·e + 31
  for expert e), so the eight write-backs cover it: if every write-back is the block of one array G, the result array
  ends as G. Nothing here depends on the arithmetic inside the grid.
-/
import proofs.«105736_j42949673290_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Host

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## Before the grid: the token array with the expert axis split off -/

/-- The array the grid's first window reads is the token array reshaped to 8 x 1024 x 2048. -/
theorem entry_x (c : Dev nD) :
    (V m c main_v0 : S8x1024x2048.Idx → Elt F .f32)
      = shapeCast S8x1024x2048 (m ((c : Thread nD τ).loc main_arg0)) shapeCasts_S8192x2048_S8x1024x2048 := by
  show StableHlo.after hostOps0 (fun b => m (c, b)) (Proc.devRef .tc main_v0) = _
  after_results
  rfl

/-! ## The result array's blocks cover it -/

/-- The result window's block at point t is expert t / 32's whole slab. -/
theorem idx10 : ∀ t : Fin cfg0.N, win0_10.index t (0 : Fin 3) = t.val / 32 ∧ win0_10.index t (1 : Fin 3) = 0
    ∧ win0_10.index t (2 : Fin 3) = 0 :=
  (by decide +kernel : ∀ t : Fin grid0.N, _)

/-- An index of the result array is in point t's block iff each coordinate is in the block's range on its axis. -/
theorem mem_blk (t : Fin cfg0.N) (i : S8x1024x2048.Idx) :
    i ∈ ((cfg0.win 10).blk t).view.set ↔ ∀ a : Fin 3, win0_10.index t a * S1x1024x2048.size a ≤ (i a).val
      ∧ (i a).val < win0_10.index t a * S1x1024x2048.size a + S1x1024x2048.size a := by
  show i ∈ ((View.whole main_v1).slice (win0_10.rect t)).set ↔ _
  rw [View.set_slice_whole, Rect.mem_set_unit]
  exact Iff.rfl

/-- Every index (e, r, d) of the result array is in the block written back at point 32·e + 31. -/
theorem cover (i : S8x1024x2048.Idx) :
    ∃ t : Fin cfg0.N, (cfg0.win 10).flush t = true ∧ i ∈ ((cfg0.win 10).blk t).view.set := by
  have hN : cfg0.N = 256 := N_0
  have h0 : (i 0).val < 8 := (i 0).isLt
  have h1 : (i 1).val < 1024 := (i 1).isLt
  have h2 : (i 2).val < 2048 := (i 2).isLt
  have ht : 32 * (i 0).val + 31 < cfg0.N := by omega
  obtain ⟨e0, e1, e2⟩ := idx10 ⟨32 * (i 0).val + 31, ht⟩
  have e0' : win0_10.index ⟨32 * (i 0).val + 31, ht⟩ (0 : Fin 3) = (i 0).val := by
    rw [e0]; show (32 * (i 0).val + 31) / 32 = (i 0).val; omega
  refine ⟨⟨32 * (i 0).val + 31, ht⟩, (flush0_10 _).mpr (by show (32 * (i 0).val + 31) % 32 = 31; omega), ?_⟩
  rw [mem_blk]
  intro a
  match a with
  | ⟨0, _⟩ =>
    show win0_10.index ⟨32 * (i 0).val + 31, ht⟩ (0 : Fin 3) * 1 ≤ (i 0).val
      ∧ (i 0).val < win0_10.index ⟨32 * (i 0).val + 31, ht⟩ (0 : Fin 3) * 1 + 1
    rw [e0']; omega
  | ⟨1, _⟩ =>
    show win0_10.index ⟨32 * (i 0).val + 31, ht⟩ (1 : Fin 3) * 1024 ≤ (i 1).val
      ∧ (i 1).val < win0_10.index ⟨32 * (i 0).val + 31, ht⟩ (1 : Fin 3) * 1024 + 1024
    rw [e1]; omega
  | ⟨2, _⟩ =>
    show win0_10.index ⟨32 * (i 0).val + 31, ht⟩ (2 : Fin 3) * 2048 ≤ (i 2).val
      ∧ (i 2).val < win0_10.index ⟨32 * (i 0).val + 31, ht⟩ (2 : Fin 3) * 2048 + 2048
    rw [e2]; omega

/-- If every write-back is the block of one array G, the result array ends as G. -/
theorem final_of (c : Dev nD) (G : Buf (Elt F) ((c : Thread nD τ).loc main_v1))
    (hG : ∀ t : Fin cfg0.N, (cfg0.win 10).flush t = true →
      (dats m 0 c).flushed 10 t = ((cfg0.win 10).blk t).view.read (Elt F) G) :
    (dats m 0 c).arrAt 10 cfg0.N = G :=
  (dats m 0 c).arrAt_eq_of_cover 10 G hG cover

/-! ## After the grid: the result array flattened back -/

/-- The one operation after the grid, from any contents of the buffers: the result is the result array's contents
    reshaped to 8192 x 2048. -/
theorem tail_val (W : Valuation τ sig (Elt F)) :
    StableHlo.after hostOps1 W (Proc.devRef .tc main_v2)
      = shapeCast S8192x2048 (W (Proc.devRef .tc main_v1)) shapeCasts_S8x1024x2048_S8192x2048 := by
  after_results
  rfl

/-- The program's result is the grid's result array reshaped to 8192 x 2048. -/
theorem tail_eq (c : Dev nD) :
    Pipeline.afterTail₀ cfgs (dats m) 0 (V0 m) [hostOps1] c main_v2
      = shapeCast S8192x2048 ((dats m 0 c).arrAt 10 cfg0.N) shapeCasts_S8x1024x2048_S8192x2048 := by
  unfold Pipeline.afterTail₀
  show StableHlo.after hostOps1 _ (Proc.devRef .tc main_v2) = _
  refine (tail_val _).trans ?_
  exact congrArg (fun A => shapeCast S8192x2048 A shapeCasts_S8x1024x2048_S8192x2048)
    (Pipeline.withArrays_arr spec0 launch0.win.arr_inj c _ _ 10)

/-! ## The run -/

/-- Every run of the program ends with the result at the reshaped result array of the grid and every argument as it
    was. -/
theorem run_of (res : (c : Dev nD) → Buf (Elt F) ((c : Thread nD τ).loc main_v2))
    (hres : ∀ c, shapeCast S8192x2048 ((dats m 0 c).arrAt 10 cfg0.N) shapeCasts_S8x1024x2048_S8192x2048 = res c) :
    θ_run defs (onTc (τ := τ) (main (F := F))) ⟨m, fun _ => 0, ρ⟩ (fun r => ∀ c : Dev nD,
      r.2.mem ((c.tc : Thread nD τ).loc main_v2) = res c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v2 (Pipeline.mem_restRefs_of main_v2 (by decide) (by decide))).trans ((tail_eq m c).trans (hres c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 7).trans (((dats m 0 c).arrAt_in 7 rfl _).trans ((A_eq m c 7).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c)))⟩) (run_main m ρ)

end Cert.KernelIdeal.Host

end
-- ==== Proof.KernelResult.lean ====
/-
  The kernel program's result. The region's result array holds, for every expert, the block that expert's last grid
  point writes back, and those eight blocks tile the array; each block is the layer's result for its expert, so the array is
  the layer of the arrays as the region finds them. The token rows arrive reshaped from 8192 rows to 8 experts of 1024 rows,
  and the result array is reshaped back to 8192 rows.
-/
import proofs.«105736_j42949673290_2_alg».proof.Proof.KernelAcc
import proofs.«105736_j42949673290_2_alg».proof.Proof.KernelHost

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Blocks Cert.Moe

variable (m : (ℓ : Loc nD τ sig) → Buf (Elt Ideal) ℓ) (ρ : Dev nD → PrngReg)

/-- The region's result array: the layer of the arrays as the region finds them. -/
def G (c : Dev nD) : Buf (Elt Ideal) ((c : Thread nD τ).loc main_v1) :=
  outArr (V m c main_v0) (V m c main_arg2) (V m c main_arg3) (V m c main_arg4) (V m c main_arg5) (V m c main_arg7) (V m c main_arg6) (V m c main_arg8) (V m c main_arg9) (V m c main_arg10)

/-- The result window's block index at point t: the point's expert. -/
theorem idx10 : ∀ t : Fin cfg0.N, win0_10.index t (0 : Fin 3) = t.val / 32 ∧ win0_10.index t (1 : Fin 3) = 0 ∧ win0_10.index t (2 : Fin 3) = 0 :=
  (by decide +kernel : ∀ t : Fin grid0.N, _)

/-- An entry of the result window's block at point t, read off an array, is the array's entry at the point's expert. -/
theorem read10 (c : Dev nD) (A : Buf (Elt Ideal) ((c : Thread nD τ).loc main_v1)) (t : Fin cfg0.N) (a : Fin 1) (p : Fin 1024) (q : Fin 2048) :
    ((cfg0.win 10).blk t).view.read (Elt Ideal) A (ix3 a p q) = A (ix3 (ept t) p q) := by
  rw [View.read_apply]
  refine congrArg A (funext fun b => Fin.ext ?_)
  obtain ⟨h0, h1, h2⟩ := idx10 t
  have ha : a.val = 0 := by have := a.isLt; omega
  match b with
  | ⟨0, _⟩ => show win0_10.index t (0 : Fin 3) * 1 + 1 * a.val = t.val / 32; rw [h0]; omega
  | ⟨1, _⟩ => show win0_10.index t (1 : Fin 3) * 1024 + 1 * p.val = p.val; rw [h1]; omega
  | ⟨2, _⟩ => show win0_10.index t (2 : Fin 3) * 2048 + 1 * q.val = q.val; rw [h2]; omega

/-- What an expert's last point writes back is that expert's block of the layer's result. -/
theorem flushed_eq (c : Dev nD) (t : Fin cfg0.N) (hf : (cfg0.win 10).flush t = true) :
    (dats m 0 c).flushed 10 t = ((cfg0.win 10).blk t).view.read (Elt Ideal) (G m c) := by
  have h1 : t.val % 32 = 31 := (flush0_10 t).mp hf
  show (cfg0.win 10).cut (grid0.coords t) ((dats m 0 c).after 10 t) = _
  rw [after0_10]
  funext y
  obtain ⟨a, p, q, rfl⟩ : ∃ (a : Fin 1) (p : Fin 1024) (q : Fin 2048), y = ix3 a p q := ⟨y 0, y 1, y 2, eq_ix3 y⟩
  rw [read10 c (G m c) t a p q]
  exact Acc.result_block m c t h1 a p q

/-- The region's result array after the run. -/
theorem final (c : Dev nD) : (dats m 0 c).arrAt 10 cfg0.N = G m c :=
  Host.final_of m c (G m c) (flushed_eq m c)

/-- The program's result: the layer of the launch arrays, the token rows reshaped in and the result reshaped out. -/
def result (c : Dev nD) : Buf (Elt Ideal) ((c : Thread nD τ).loc main_v2) :=
  shapeCast S8192x2048
    (outArr (shapeCast S8x1024x2048 (m ((c : Thread nD τ).loc main_arg0)) shapeCasts_S8192x2048_S8x1024x2048) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) (m ((c : Thread nD τ).loc main_arg10)))
    shapeCasts_S8x1024x2048_S8192x2048

/-- The arrays the region finds are the launch arrays, the token rows reshaped. -/
theorem G_eq (c : Dev nD) : G m c
    = outArr (shapeCast S8x1024x2048 (m ((c : Thread nD τ).loc main_arg0)) shapeCasts_S8192x2048_S8x1024x2048) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) (m ((c : Thread nD τ).loc main_arg10)) := by
  unfold G
  rw [Host.entry_x m c, V_main_arg2 m c, V_main_arg3 m c, V_main_arg4 m c, V_main_arg5 m c, V_main_arg6 m c, V_main_arg7 m c, V_main_arg8 m c,
    V_main_arg9 m c, V_main_arg10 m c]

/-- The run, read: the program's result array ends at `result`, the argument arrays unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Host.run_of m ρ (result m) (fun c => by rw [final m c, G_eq m c]; rfl)

end Cert.KernelIdeal.Result

end
-- ==== Proof.lean ====
/-
  A grouped expert layer with low-rank corrections: the fused kernel against the plain reference, over the extended reals.

  Both programs compute, for each of 8 experts with 1024 token rows of 2048 features, out = lin(silu(lin_gate(x)) · lin_up(x))
  where lin(x) = x·W + 2·((x·A)·B) with rank-16 factors A and B and silu v = v · (1 / (1 + e^(-v))). The reference does it with
  whole batched matrix products over the 4096 hidden columns. The kernel walks a grid of (expert, hidden block) points, 32
  blocks of 128 hidden columns per expert: at each point it computes the hidden activation's block and adds the block's
  contribution to two running totals (the base product, and the correction's inner product), and at an expert's last block it
  stores total₁ + 2·(total₂ · B). A sum over the 4096 hidden columns is the sum over the 32 blocks of the sums within a block
  (addition of extended reals is commutative and associative), so the two programs agree entry by entry; no entry needs to be
  finite for that, and the precondition is not used. Rounding to a shorter float format is the identity on extended reals, so
  the kernel's casts play no part, and nothing was rewritten when the kernel was idealized.
-/
import proofs.«105736_j42949673290_2_alg».proof.Defs
import proofs.«105736_j42949673290_2_alg».proof.Proof.Gen.Kernel
import proofs.«105736_j42949673290_2_alg».proof.Proof.Gen.Kernel.Skeleton
import proofs.«105736_j42949673290_2_alg».proof.Proof.Gen.Kernel.Launch
import proofs.«105736_j42949673290_2_alg».proof.Proof.Gen.Kernel.Points
import proofs.«105736_j42949673290_2_alg».proof.Proof.Gen.Kernel.Frame
import proofs.«105736_j42949673290_2_alg».proof.Proof.Gen.KernelIdeal
import proofs.«105736_j42949673290_2_alg».proof.Proof.Gen.KernelIdeal.Skeleton
import proofs.«105736_j42949673290_2_alg».proof.Proof.Gen.KernelIdeal.Launch
import proofs.«105736_j42949673290_2_alg».proof.Proof.Gen.KernelIdeal.Points
import proofs.«105736_j42949673290_2_alg».proof.Proof.Gen.KernelIdeal.Frame
import proofs.«105736_j42949673290_2_alg».proof.Proof.Gen.ReferenceIdeal
import proofs.«105736_j42949673290_2_alg».proof.Proof.Gen.ReferenceIdeal.Run
import proofs.«105736_j42949673290_2_alg».proof.Proof.Gen.ReferenceIdeal.Read
import proofs.«105736_j42949673290_2_alg».proof.Proof.Gen.Pre_finite_inputs
import proofs.«105736_j42949673290_2_alg».proof.Proof.RefValue
import proofs.«105736_j42949673290_2_alg».proof.Proof.KernelResult
import Idealize.ShloMosaic.Adequacy
import Idealize.ShloMosaic.Init

noncomputable section

namespace Cert.Proof

open Idealize.ShloMosaic Idealize.ShloMosaic.TcCoe Idealize.SL.Sem

/-- The three programs run to the end without a fault and leave their argument arrays as they were. -/
theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Over the extended reals the kernel's result array and the reference's are the same function of arguments that agree:
    both are the layer of the reshaped token rows and the weight arrays, reshaped back. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, _, a2, a3, a4, a5, a6, a7, a8, a9, a10⟩ := hagree c
  rw [Cert.ReferenceIdeal.Read.val_main_v21_eq, a0, a2, a3, a4, a5, a6, a7, a8, a9, a10]
  unfold Cert.ReferenceIdeal.Read.val_main_v21
  rw [Cert.ReferenceIdeal.RefValue.ref_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
